-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v169)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v169) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v169) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x1 : Shape := ⟨2, ![64, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S4x64 .f32) (main_arg7 : FVec F S64x1 .f32) (main_arg8 : FVec F S1 .f32) (main_v13 : IVec S_ 1) (main_v16 : IVec S4x64x64 1) : IVec S_ 1 :=
  let main_c_5 : IVec S_ 1 := constantI S_ 1 1#1
  let main_v17 : IVec S_ 1 := (fun x v => Host.reduce IntOp.andi x v reducesTo_S4x64x64_S_d0_1_2 h_S_) main_v16 main_c_5
  let main_v18 : IVec S_ 1 := andi main_v13 main_v17
  let main_v19 : FVec F S4x64 .f32 := Host.absf main_arg6
  let main_cst_6 : FVec F S_ .f32 := constant S_ .f32 0x7F800000#32
  let main_v20 : FVec F S4x64 .f32 := broadcastInDim S4x64 ![] bcast_S_S4x64 main_cst_6
  let main_v21 : IVec S4x64 1 := cmpf .olt main_v19 main_v20
  let main_c_7 : IVec S_ 1 := constantI S_ 1 1#1
  let main_v22 : IVec S_ 1 := (fun x v => Host.reduce IntOp.andi x v reducesTo_S4x64_S_d0_1 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1000000 32) (main_arg2 : IVec S100000 32) (main_arg3 : FVec F S128x64 .f32) (main_arg4 : FVec F S64 .f32) (main_arg5 : FVec F S4x64x64 .f32) (main_arg6 : FVec F S4x64 .f32) (main_arg7 : FVec F S64x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S4x64x64 .f32 := Host.absf main_arg5
  let main_cst_4 : FVec F S_ .f32 := constant S_ .f32 0x7F800000#32
  let main_v15 : FVec F S4x64x64 .f32 := broadcastInDim S4x64x64 ![] bcast_S_S4x64x64 main_cst_4
  let main_v16 : IVec S4x64x64 1 := cmpf .olt main_v14 main_v15
  fn_part1 (F := F) main_arg6 main_arg7 main_arg8 main_v13 main_v16
-- ==== Kernel.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S5000x128 : Shape := ⟨2, ![5000, 128]⟩
abbrev S5000x64 : Shape := ⟨2, ![5000, 64]⟩
abbrev S1100000x64 : Shape := ⟨2, ![1100000, 64]⟩
abbrev S1x64 : Shape := ⟨2, ![1, 64]⟩
abbrev S1x64x64 : Shape := ⟨3, ![1, 64, 64]⟩
abbrev S64x64 : Shape := ⟨2, ![64, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 223
  | .vmem => 25
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S128x64, .f32⟩
  | 4 => ⟨S64, .f32⟩
  | 5 => ⟨S4x64x64, .f32⟩
  | 6 => ⟨S4x64, .f32⟩
  | 7 => ⟨S64x1, .f32⟩
  | 8 => ⟨S1, .f32⟩
  | 9 => ⟨S100000, .i32⟩
  | 10 => ⟨S1x1000000, .i32⟩
  | 11 => ⟨S1000000, .i32⟩
  | 12 => ⟨S1100000, .i32⟩
  | 13 => ⟨S1x1000000, .i32⟩
  | 14 => ⟨S1000000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S100000x64, .f32⟩
  | 50 => ⟨S_, .i32⟩
  | 51 => ⟨S1100000, .i32⟩
  | 52 => ⟨S1100000, .i1⟩
  | 53 => ⟨S_, .i32⟩
  | 54 => ⟨S1100000, .i32⟩
  | 55 => ⟨S1100000, .i32⟩
  | 56 => ⟨S1100000, .i32⟩
  | 57 => ⟨S1100000x1, .i32⟩
  | 58 => ⟨S1100000x64, .f32⟩
  | 59 => ⟨S1100000x1, .f32⟩
  | 60 => ⟨S1100000x64, .f32⟩
  | 61 => ⟨S1100000x64, .f32⟩
  | 62 => ⟨S_, .f32⟩
  | 63 => ⟨S100000x64, .f32⟩
  | 64 => ⟨S1100000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x64x64, .f32⟩
  | 73 => ⟨S64x64, .f32⟩
  | 74 => ⟨S1x64, .f32⟩
  | 75 => ⟨S64, .f32⟩
  | 76 => ⟨S100000x64, .f32⟩
  | 77 => ⟨S_, .i32⟩
  | 78 => ⟨S1100000, .i32⟩
  | 79 => ⟨S1100000, .i1⟩
  | 80 => ⟨S_, .i32⟩
  | 81 => ⟨S1100000, .i32⟩
  | 82 => ⟨S1100000, .i32⟩
  | 83 => ⟨S1100000, .i32⟩
  | 84 => ⟨S1100000x1, .i32⟩
  | 85 => ⟨S1100000x64, .f32⟩
  | 86 => ⟨S1100000x1, .f32⟩
  | 87 => ⟨S1100000x64, .f32⟩
  | 88 => ⟨S1100000x64, .f32⟩
  | 89 => ⟨S_, .f32⟩
  | 90 => ⟨S100000x64, .f32⟩
  | 91 => ⟨S1100000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S1x64x64, .f32⟩
  | 100 => ⟨S64x64, .f32⟩
  | 101 => ⟨S1x64, .f32⟩
  | 102 => ⟨S64, .f32⟩
  | 103 => ⟨S100000x64, .f32⟩
  | 104 => ⟨S_, .i32⟩
  | 105 => ⟨S1100000, .i32⟩
  | 106 => ⟨S1100000, .i1⟩
  | 107 => ⟨S_, .i32⟩
  | 108 => ⟨S1100000, .i32⟩
  | 109 => ⟨S1100000, .i32⟩
  | 110 => ⟨S1100000, .i32⟩
  | 111 => ⟨S1100000x1, .i32⟩
  | 112 => ⟨S1100000x64, .f32⟩
  | 113 => ⟨S1100000x1, .f32⟩
  | 114 => ⟨S1100000x64, .f32⟩
  | 115 => ⟨S1100000x64, .f32⟩
  | 116 => ⟨S_, .f32⟩
  | 117 => ⟨S100000x64, .f32⟩
  | 118 => ⟨S1100000x1, .i32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S1x64x64, .f32⟩
  | 127 => ⟨S64x64, .f32⟩
  | _ => ⟨S100000x128, .f32⟩

abbrev hbmTy0_1 (i : Nat) : BufTy := match i % 128 with
  | 0 => ⟨S1x64, .f32⟩
  | 1 => ⟨S64, .f32⟩
  | 2 => ⟨S100000x64, .f32⟩
  | 3 => ⟨S_, .i32⟩
  | 4 => ⟨S1100000, .i32⟩
  | 5 => ⟨S1100000, .i1⟩
  | 6 => ⟨S_, .i32⟩
  | 7 => ⟨S1100000, .i32⟩
  | 8 => ⟨S1100000, .i32⟩
  | 9 => ⟨S1100000, .i32⟩
  | 10 => ⟨S1100000x1, .i32⟩
  | 11 => ⟨S1100000x64, .f32⟩
  | 12 => ⟨S1100000x1, .f32⟩
  | 13 => ⟨S1100000x64, .f32⟩
  | 14 => ⟨S1100000x64, .f32⟩
  | 15 => ⟨S_, .f32⟩
  | 16 => ⟨S100000x64, .f32⟩
  | 17 => ⟨S1100000x1, .i32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S1x64x64, .f32⟩
  | 26 => ⟨S64x64, .f32⟩
  | 27 => ⟨S1x64, .f32⟩
  | 28 => ⟨S64, .f32⟩
  | 29 => ⟨S100000x64, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000x64, .f32⟩
  | 39 => ⟨S1100000x1, .f32⟩
  | 40 => ⟨S1100000x64, .f32⟩
  | 41 => ⟨S1100000x64, .f32⟩
  | 42 => ⟨S_, .f32⟩
  | 43 => ⟨S100000x64, .f32⟩
  | 44 => ⟨S1100000x1, .i32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S_, .f32⟩
  | 53 => ⟨S1000x64, .f32⟩
  | 54 => ⟨S100000x1, .i32⟩
  | 55 => ⟨S1000x64, .f32⟩
  | 56 => ⟨S_, .f32⟩
  | 57 => ⟨S100000, .f32⟩
  | 58 => ⟨S_, .f32⟩
  | 59 => ⟨S1000, .f32⟩
  | 60 => ⟨S100000x1, .i32⟩
  | 61 => ⟨S1000, .f32⟩
  | 62 => ⟨S_, .f32⟩
  | 63 => ⟨S1000, .f32⟩
  | 64 => ⟨S1000, .f32⟩
  | 65 => ⟨S1000x1, .f32⟩
  | 66 => ⟨S1000x64, .f32⟩
  | 67 => ⟨S1000x64, .f32⟩
  | 68 => ⟨S_, .f32⟩
  | 69 => ⟨S1000, .f32⟩
  | 70 => ⟨S1000x1, .f32⟩
  | 71 => ⟨S_, .f32⟩
  | 72 => ⟨S1000x1, .f32⟩
  | 73 => ⟨S1000x1, .f32⟩
  | 74 => ⟨S1000x64, .f32⟩
  | 75 => ⟨S1000x64, .f32⟩
  | 76 => ⟨S1000x64, .f32⟩
  | 77 => ⟨S_, .f32⟩
  | 78 => ⟨S1000, .f32⟩
  | 79 => ⟨S1000x1, .f32⟩
  | 80 => ⟨S_, .f32⟩
  | 81 => ⟨S1000x1, .f32⟩
  | 82 => ⟨S1000x1, .f32⟩
  | 83 => ⟨S1000x64, .f32⟩
  | 84 => ⟨S1000x64, .f32⟩
  | 85 => ⟨S_, .f32⟩
  | 86 => ⟨S1000x1, .f32⟩
  | 87 => ⟨S1000x1, .f32⟩
  | 88 => ⟨S1000x1, .f32⟩
  | 89 => ⟨S1000x64, .f32⟩
  | 90 => ⟨S1000x64, .f32⟩
  | 91 => ⟨S1000x1, .f32⟩
  | 92 => ⟨S1x1, .f32⟩
  | 93 => ⟨S1000x1, .f32⟩
  | 94 => ⟨S1000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S64x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S64x64, .f32⟩
  | .local _ .vmem, ⟨23, _⟩ => ⟨S5000x64, .f32⟩
  | .local _ .vmem, ⟨24, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call2_cst : Ref sig .tc := ⟨.hbm, 69, rfl⟩
abbrev main_call2_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call4_cst : Ref sig .tc := ⟨.hbm, 96, rfl⟩
abbrev main_call4_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_c_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call6_cst : Ref sig .tc := ⟨.hbm, 123, rfl⟩
abbrev main_call6_v0 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_15 : Ref sig .tc := ⟨.hbm, 131, rfl⟩
abbrev main_v97 : Ref sig .tc := ⟨.hbm, 132, rfl⟩
abbrev main_v98 : Ref sig .tc := ⟨.hbm, 133, rfl⟩
abbrev main_c_16 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_17 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_call8_cst : Ref sig .tc := ⟨.hbm, 150, rfl⟩
abbrev main_call8_v0 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_c_18 : Ref sig .tc := ⟨.hbm, 158, rfl⟩
abbrev main_v119 : Ref sig .tc := ⟨.hbm, 159, rfl⟩
abbrev main_v120 : Ref sig .tc := ⟨.hbm, 160, rfl⟩
abbrev main_c_19 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_20 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_call10_cst : Ref sig .tc := ⟨.hbm, 177, rfl⟩
abbrev main_call10_v0 : Ref sig .tc := ⟨.hbm, 178, rfl⟩
abbrev main_v135 : Ref sig .tc := ⟨.hbm, 179, rfl⟩
abbrev main_cst_21 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_22 : Ref sig .tc := ⟨.hbm, 184, rfl⟩
abbrev main_v139 : Ref sig .tc := ⟨.hbm, 185, rfl⟩
abbrev main_cst_23 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_24 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_25 : Ref sig .tc := ⟨.hbm, 196, rfl⟩
abbrev main_v148 : Ref sig .tc := ⟨.hbm, 197, rfl⟩
abbrev main_v149 : Ref sig .tc := ⟨.hbm, 198, rfl⟩
abbrev main_cst_26 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_27 : Ref sig .tc := ⟨.hbm, 205, rfl⟩
abbrev main_v155 : Ref sig .tc := ⟨.hbm, 206, rfl⟩
abbrev main_v156 : Ref sig .tc := ⟨.hbm, 207, rfl⟩
abbrev main_cst_28 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_29 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  reducesTo_S1000x64_S1000_d1 : S1000x64.ReducesTo [1] S1000
  h_S_ : 0 < S_.numel
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S5000x128_S128x64_S5000x64_1_0_0_1_n_n_wf : DotDims.WF S5000x128 S128x64 S5000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S5000x64_S64x64_S5000x64_1_0_0_1_n_n_wf : DotDims.WF S5000x64 S64x64 S5000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x1_S1000x1_1_0_0_1_n_n_wf : DotDims.WF S1000x64 S64x1 S1000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x64.size a ≤ S100000x64.size a
  hwx4_2 : ∀ i : grid4.Coords, EltTy.bits .f32 = 32 ∨ (Rect.block (s := S100000x64) S5000x64.size (cc4_transform_2 i) (hinb4_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v69) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v71) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v91) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v93) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v96) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v113) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v115) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v118) S5000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S100000 : Shape := ⟨1, ![100000]⟩
abbrev S128x64 : Shape := ⟨2, ![128, 64]⟩
abbrev S64 : Shape := ⟨1, ![64]⟩
abbrev S4x64x64 : Shape := ⟨3, ![4, 64, 64]⟩
abbrev S4x64 : Shape := ⟨2, ![4, 64]⟩
abbrev S64x1 : Shape := ⟨2, ![64, 1]⟩
abbrev S1 : Shape := ⟨1, ![1]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S1x64x64 : Shape := ⟨3, ![1, 64, 64]⟩
abbrev S64x64 : Shape := ⟨2, ![64, 64]⟩
abbrev S1000x64 : Shape := ⟨2, ![1000, 64]⟩
abbrev S100000x1 : Shape := ⟨2, ![100000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 223
  | .vmem => 0
  | .smem => 0
  | _ => 0

abbrev hbmTy0_0 (i : Nat) : BufTy := match i % 128 with
  | 0 => ⟨S100000x128, .f32⟩
  | 1 => ⟨S2x1000000, .i32⟩
  | 2 => ⟨S100000, .i32⟩
  | 3 => ⟨S128x64, .f32⟩
  | 4 => ⟨S64, .f32⟩
  | 5 => ⟨S4x64x64, .f32⟩
  | 6 => ⟨S4x64, .f32⟩
  | 7 => ⟨S64x1, .f32⟩
  | 8 => ⟨S1, .f32⟩
  | 9 => ⟨S100000, .i32⟩
  | 10 => ⟨S1x1000000, .i32⟩
  | 11 => ⟨S1000000, .i32⟩
  | 12 => ⟨S1100000, .i32⟩
  | 13 => ⟨S1x1000000, .i32⟩
  | 14 => ⟨S1000000, .i32⟩
  | 15 => ⟨S1100000, .i32⟩
  | 16 => ⟨S_, .f32⟩
  | 17 => ⟨S1100000, .f32⟩
  | 18 => ⟨S_, .f32⟩
  | 19 => ⟨S100000, .f32⟩
  | 20 => ⟨S1100000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000, .f32⟩
  | 39 => ⟨S_, .i32⟩
  | 40 => ⟨S1100000, .i32⟩
  | 41 => ⟨S1100000, .i1⟩
  | 42 => ⟨S_, .i32⟩
  | 43 => ⟨S1100000, .i32⟩
  | 44 => ⟨S1100000, .i32⟩
  | 45 => ⟨S1100000, .i32⟩
  | 46 => ⟨S1100000x1, .i32⟩
  | 47 => ⟨S1100000, .f32⟩
  | 48 => ⟨S1100000, .f32⟩
  | 49 => ⟨S100000x64, .f32⟩
  | 50 => ⟨S_, .i32⟩
  | 51 => ⟨S1100000, .i32⟩
  | 52 => ⟨S1100000, .i1⟩
  | 53 => ⟨S_, .i32⟩
  | 54 => ⟨S1100000, .i32⟩
  | 55 => ⟨S1100000, .i32⟩
  | 56 => ⟨S1100000, .i32⟩
  | 57 => ⟨S1100000x1, .i32⟩
  | 58 => ⟨S1100000x64, .f32⟩
  | 59 => ⟨S1100000x1, .f32⟩
  | 60 => ⟨S1100000x64, .f32⟩
  | 61 => ⟨S1100000x64, .f32⟩
  | 62 => ⟨S_, .f32⟩
  | 63 => ⟨S100000x64, .f32⟩
  | 64 => ⟨S1100000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S1x64x64, .f32⟩
  | 73 => ⟨S64x64, .f32⟩
  | 74 => ⟨S1x64, .f32⟩
  | 75 => ⟨S64, .f32⟩
  | 76 => ⟨S100000x64, .f32⟩
  | 77 => ⟨S_, .i32⟩
  | 78 => ⟨S1100000, .i32⟩
  | 79 => ⟨S1100000, .i1⟩
  | 80 => ⟨S_, .i32⟩
  | 81 => ⟨S1100000, .i32⟩
  | 82 => ⟨S1100000, .i32⟩
  | 83 => ⟨S1100000, .i32⟩
  | 84 => ⟨S1100000x1, .i32⟩
  | 85 => ⟨S1100000x64, .f32⟩
  | 86 => ⟨S1100000x1, .f32⟩
  | 87 => ⟨S1100000x64, .f32⟩
  | 88 => ⟨S1100000x64, .f32⟩
  | 89 => ⟨S_, .f32⟩
  | 90 => ⟨S100000x64, .f32⟩
  | 91 => ⟨S1100000x1, .i32⟩
  | 92 => ⟨S100000x64, .f32⟩
  | 93 => ⟨S1x64, .f32⟩
  | 94 => ⟨S100000x64, .f32⟩
  | 95 => ⟨S100000x64, .f32⟩
  | 96 => ⟨S_, .f32⟩
  | 97 => ⟨S100000x64, .f32⟩
  | 98 => ⟨S100000x64, .f32⟩
  | 99 => ⟨S1x64x64, .f32⟩
  | 100 => ⟨S64x64, .f32⟩
  | 101 => ⟨S1x64, .f32⟩
  | 102 => ⟨S64, .f32⟩
  | 103 => ⟨S100000x64, .f32⟩
  | 104 => ⟨S_, .i32⟩
  | 105 => ⟨S1100000, .i32⟩
  | 106 => ⟨S1100000, .i1⟩
  | 107 => ⟨S_, .i32⟩
  | 108 => ⟨S1100000, .i32⟩
  | 109 => ⟨S1100000, .i32⟩
  | 110 => ⟨S1100000, .i32⟩
  | 111 => ⟨S1100000x1, .i32⟩
  | 112 => ⟨S1100000x64, .f32⟩
  | 113 => ⟨S1100000x1, .f32⟩
  | 114 => ⟨S1100000x64, .f32⟩
  | 115 => ⟨S1100000x64, .f32⟩
  | 116 => ⟨S_, .f32⟩
  | 117 => ⟨S100000x64, .f32⟩
  | 118 => ⟨S1100000x1, .i32⟩
  | 119 => ⟨S100000x64, .f32⟩
  | 120 => ⟨S1x64, .f32⟩
  | 121 => ⟨S100000x64, .f32⟩
  | 122 => ⟨S100000x64, .f32⟩
  | 123 => ⟨S_, .f32⟩
  | 124 => ⟨S100000x64, .f32⟩
  | 125 => ⟨S100000x64, .f32⟩
  | 126 => ⟨S1x64x64, .f32⟩
  | 127 => ⟨S64x64, .f32⟩
  | _ => ⟨S100000x128, .f32⟩

abbrev hbmTy0_1 (i : Nat) : BufTy := match i % 128 with
  | 0 => ⟨S1x64, .f32⟩
  | 1 => ⟨S64, .f32⟩
  | 2 => ⟨S100000x64, .f32⟩
  | 3 => ⟨S_, .i32⟩
  | 4 => ⟨S1100000, .i32⟩
  | 5 => ⟨S1100000, .i1⟩
  | 6 => ⟨S_, .i32⟩
  | 7 => ⟨S1100000, .i32⟩
  | 8 => ⟨S1100000, .i32⟩
  | 9 => ⟨S1100000, .i32⟩
  | 10 => ⟨S1100000x1, .i32⟩
  | 11 => ⟨S1100000x64, .f32⟩
  | 12 => ⟨S1100000x1, .f32⟩
  | 13 => ⟨S1100000x64, .f32⟩
  | 14 => ⟨S1100000x64, .f32⟩
  | 15 => ⟨S_, .f32⟩
  | 16 => ⟨S100000x64, .f32⟩
  | 17 => ⟨S1100000x1, .i32⟩
  | 18 => ⟨S100000x64, .f32⟩
  | 19 => ⟨S1x64, .f32⟩
  | 20 => ⟨S100000x64, .f32⟩
  | 21 => ⟨S100000x64, .f32⟩
  | 22 => ⟨S_, .f32⟩
  | 23 => ⟨S100000x64, .f32⟩
  | 24 => ⟨S100000x64, .f32⟩
  | 25 => ⟨S1x64x64, .f32⟩
  | 26 => ⟨S64x64, .f32⟩
  | 27 => ⟨S1x64, .f32⟩
  | 28 => ⟨S64, .f32⟩
  | 29 => ⟨S100000x64, .f32⟩
  | 30 => ⟨S_, .i32⟩
  | 31 => ⟨S1100000, .i32⟩
  | 32 => ⟨S1100000, .i1⟩
  | 33 => ⟨S_, .i32⟩
  | 34 => ⟨S1100000, .i32⟩
  | 35 => ⟨S1100000, .i32⟩
  | 36 => ⟨S1100000, .i32⟩
  | 37 => ⟨S1100000x1, .i32⟩
  | 38 => ⟨S1100000x64, .f32⟩
  | 39 => ⟨S1100000x1, .f32⟩
  | 40 => ⟨S1100000x64, .f32⟩
  | 41 => ⟨S1100000x64, .f32⟩
  | 42 => ⟨S_, .f32⟩
  | 43 => ⟨S100000x64, .f32⟩
  | 44 => ⟨S1100000x1, .i32⟩
  | 45 => ⟨S100000x64, .f32⟩
  | 46 => ⟨S1x64, .f32⟩
  | 47 => ⟨S100000x64, .f32⟩
  | 48 => ⟨S100000x64, .f32⟩
  | 49 => ⟨S_, .f32⟩
  | 50 => ⟨S100000x64, .f32⟩
  | 51 => ⟨S100000x64, .f32⟩
  | 52 => ⟨S_, .f32⟩
  | 53 => ⟨S1000x64, .f32⟩
  | 54 => ⟨S100000x1, .i32⟩
  | 55 => ⟨S1000x64, .f32⟩
  | 56 => ⟨S_, .f32⟩
  | 57 => ⟨S100000, .f32⟩
  | 58 => ⟨S_, .f32⟩
  | 59 => ⟨S1000, .f32⟩
  | 60 => ⟨S100000x1, .i32⟩
  | 61 => ⟨S1000, .f32⟩
  | 62 => ⟨S_, .f32⟩
  | 63 => ⟨S1000, .f32⟩
  | 64 => ⟨S1000, .f32⟩
  | 65 => ⟨S1000x1, .f32⟩
  | 66 => ⟨S1000x64, .f32⟩
  | 67 => ⟨S1000x64, .f32⟩
  | 68 => ⟨S_, .f32⟩
  | 69 => ⟨S1000, .f32⟩
  | 70 => ⟨S1000x1, .f32⟩
  | 71 => ⟨S_, .f32⟩
  | 72 => ⟨S1000x1, .f32⟩
  | 73 => ⟨S1000x1, .f32⟩
  | 74 => ⟨S1000x64, .f32⟩
  | 75 => ⟨S1000x64, .f32⟩
  | 76 => ⟨S1000x64, .f32⟩
  | 77 => ⟨S_, .f32⟩
  | 78 => ⟨S1000, .f32⟩
  | 79 => ⟨S1000x1, .f32⟩
  | 80 => ⟨S_, .f32⟩
  | 81 => ⟨S1000x1, .f32⟩
  | 82 => ⟨S1000x1, .f32⟩
  | 83 => ⟨S1000x64, .f32⟩
  | 84 => ⟨S1000x64, .f32⟩
  | 85 => ⟨S_, .f32⟩
  | 86 => ⟨S1000x1, .f32⟩
  | 87 => ⟨S1000x1, .f32⟩
  | 88 => ⟨S1000x1, .f32⟩
  | 89 => ⟨S1000x64, .f32⟩
  | 90 => ⟨S1000x64, .f32⟩
  | 91 => ⟨S1000x1, .f32⟩
  | 92 => ⟨S1x1, .f32⟩
  | 93 => ⟨S1000x1, .f32⟩
  | 94 => ⟨S1000x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_v16 : Ref sig .tc := ⟨.hbm, 32, rfl⟩
abbrev main_c_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c_4 : Ref sig .tc := ⟨.hbm, 39, rfl⟩
abbrev main_v22 : Ref sig .tc := ⟨.hbm, 40, rfl⟩
abbrev main_v23 : Ref sig .tc := ⟨.hbm, 41, rfl⟩
abbrev main_c_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_call1_cst : Ref sig .tc := ⟨.hbm, 69, rfl⟩
abbrev main_call1_v0 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_c_9 : Ref sig .tc := ⟨.hbm, 77, rfl⟩
abbrev main_v53 : Ref sig .tc := ⟨.hbm, 78, rfl⟩
abbrev main_v54 : Ref sig .tc := ⟨.hbm, 79, rfl⟩
abbrev main_c_10 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_11 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_call2_cst : Ref sig .tc := ⟨.hbm, 96, rfl⟩
abbrev main_call2_v0 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_12 : Ref sig .tc := ⟨.hbm, 104, rfl⟩
abbrev main_v75 : Ref sig .tc := ⟨.hbm, 105, rfl⟩
abbrev main_v76 : Ref sig .tc := ⟨.hbm, 106, rfl⟩
abbrev main_c_13 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_14 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_call3_cst : Ref sig .tc := ⟨.hbm, 123, rfl⟩
abbrev main_call3_v0 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_c_15 : Ref sig .tc := ⟨.hbm, 131, rfl⟩
abbrev main_v97 : Ref sig .tc := ⟨.hbm, 132, rfl⟩
abbrev main_v98 : Ref sig .tc := ⟨.hbm, 133, rfl⟩
abbrev main_c_16 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_cst_17 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_call4_cst : Ref sig .tc := ⟨.hbm, 150, rfl⟩
abbrev main_call4_v0 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_v117 : Ref sig .tc := ⟨.hbm, 156, rfl⟩
abbrev main_v118 : Ref sig .tc := ⟨.hbm, 157, rfl⟩
abbrev main_c_18 : Ref sig .tc := ⟨.hbm, 158, rfl⟩
abbrev main_v119 : Ref sig .tc := ⟨.hbm, 159, rfl⟩
abbrev main_v120 : Ref sig .tc := ⟨.hbm, 160, rfl⟩
abbrev main_c_19 : Ref sig .tc := ⟨.hbm, 161, rfl⟩
abbrev main_v121 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_cst_20 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_call5_cst : Ref sig .tc := ⟨.hbm, 177, rfl⟩
abbrev main_call5_v0 : Ref sig .tc := ⟨.hbm, 178, rfl⟩
abbrev main_v135 : Ref sig .tc := ⟨.hbm, 179, rfl⟩
abbrev main_cst_21 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_cst_22 : Ref sig .tc := ⟨.hbm, 184, rfl⟩
abbrev main_v139 : Ref sig .tc := ⟨.hbm, 185, rfl⟩
abbrev main_cst_23 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_cst_24 : Ref sig .tc := ⟨.hbm, 190, rfl⟩
abbrev main_v143 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_cst_25 : Ref sig .tc := ⟨.hbm, 196, rfl⟩
abbrev main_v148 : Ref sig .tc := ⟨.hbm, 197, rfl⟩
abbrev main_v149 : Ref sig .tc := ⟨.hbm, 198, rfl⟩
abbrev main_cst_26 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_cst_27 : Ref sig .tc := ⟨.hbm, 205, rfl⟩
abbrev main_v155 : Ref sig .tc := ⟨.hbm, 206, rfl⟩
abbrev main_v156 : Ref sig .tc := ⟨.hbm, 207, rfl⟩
abbrev main_cst_28 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_cst_29 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S4x64x64_S1x64x64_0_0_0 : S4x64x64.Slices ![0, 0, 0] S1x64x64
  shapeCasts_S1x64x64_S64x64 : S1x64x64.ShapeCasts S64x64
  slices_S4x64_S1x64_0_0 : S4x64.Slices ![0, 0] S1x64
  shapeCasts_S1x64_S64 : S1x64.ShapeCasts S64
  slices_S4x64x64_S1x64x64_1_0_0 : S4x64x64.Slices ![1, 0, 0] S1x64x64
  slices_S4x64_S1x64_1_0 : S4x64.Slices ![1, 0] S1x64
  slices_S4x64x64_S1x64x64_2_0_0 : S4x64x64.Slices ![2, 0, 0] S1x64x64
  slices_S4x64_S1x64_2_0 : S4x64.Slices ![2, 0] S1x64
  slices_S4x64x64_S1x64x64_3_0_0 : S4x64x64.Slices ![3, 0, 0] S1x64x64
  slices_S4x64_S1x64_3_0 : S4x64.Slices ![3, 0] S1x64
  bcast_S_S1000x64 : S_.BroadcastsInDim S1000x64 (![] : Fin 0 → Fin S1000x64.rank)
  bcast_S100000_S100000x1_0 : S100000.BroadcastsInDim S100000x1 (![0] : Fin 1 → Fin S100000x1.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x64_0_1 : S1000x1.BroadcastsInDim S1000x64 (![0, 1] : Fin 2 → Fin S1000x64.rank)
  reducesTo_S1000x64_S1000_d1 : S1000x64.ReducesTo [1] S1000
  h_S_ : 0 < S_.numel
  bcast_S_S1000x1 : S_.BroadcastsInDim S1000x1 (![] : Fin 0 → Fin S1000x1.rank)
  bcast_S1_S1x1_1 : S1.BroadcastsInDim S1x1 (![1] : Fin 1 → Fin S1x1.rank)
  bcast_S1x1_S1000x1_0_1 : S1x1.BroadcastsInDim S1000x1 (![0, 1] : Fin 2 → Fin S1000x1.rank)
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x64_S100000x64_1_0_0_1_n_n_wf : DotDims.WF S100000x128 S128x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  scatter_S1000x64_S100000x1_S100000x64_1_0_0_1_wf : ScatterDims.WF S1000x64 S100000x1 S100000x64 [1] [0] [0] 1
  scatter_S1000_S100000x1_S100000_n_0_0_1_wf : ScatterDims.WF S1000 S100000x1 S100000 [] [0] [0] 1
  dot_S1000x64_S64x1_S1000x1_1_0_0_1_n_n_wf : DotDims.WF S1000x64 S64x1 S1000x1 [1] [0] [0] [1] [] []

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1000x64_S100000x1_S100000x64_1_0_0_1 : ScatterDims S1000x64 S100000x1 S100000x64 where
  updateWindowDims := [1]
  insertedWindowDims := [0]
  scatterDimsToOperandDims := [0]
  indexVectorDim := 1
  wf := scatter_S1000x64_S100000x1_S100000x64_1_0_0_1_wf
def scatter_S1000_S100000x1_S100000_n_0_0_1 : ScatterDims S1000 S100000x1 S100000 where
  updateWindowDims := []
  insertedWindowDims := [0]
  scatterDimsToOperandDims := [0]
  indexVectorDim := 1
  wf := scatter_S1000_S100000x1_S100000_n_0_0_1_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf

class Facts : Prop extends Facts₀ where

variable [Facts]
-- ==== Proof.KernelRun.lean ====
/-
  The idealized kernel's run with its result named.

  The program is five kernel regions among stretches of host operations.  Every weakly fair execution terminates, faults
  nowhere, leaves the argument arrays as launched, and leaves in the result buffer what the last boundary of the run
  holds there: the buffer contents are followed from the launch through each stretch (its operations applied in order)
  and each region (its output array at what the region's grid points wrote back, everything else untouched).  The later
  modules read that last boundary's contents back to the arguments.
-/
import proofs.«172271_j20693152432416_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution ends with the result buffer at the last boundary's contents and the arguments as
    launched: the final thread state holds every unscoped buffer at those contents, and the final memory is read
    against it. -/
theorem run : θ_run defs (onTc (τ := τ) (main (F := F))) ⟨m, fun _ => 0, ρ⟩ (fun r => ∀ c : Dev nD,
      r.2.mem ((c.tc : Thread nD τ).loc main_v169) = W23 m ρ c (Proc.devRef .tc main_v169)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W23 m ρ c b)
    (hfin := fun c s' => by
      iintro ⟨⟨Hh, -⟩, HSI⟩
      unfold StableHlo.held
      imodintro
      iapply (pointsTo_read_all (Pipeline.ucRefs τ sig) (fun b => (((c : Thread nD τ)).1, b)) (W23 m ρ c) s')
      isplitl [Hh] <;> iassumption)
    (hQ := fun s h c =>
      ⟨h c _ (mem_uc main_v169 (by decide)),
       (h c _ (mem_uc main_arg0 (by decide))).trans (W23_main_arg0 m ρ c),
       (h c _ (mem_uc main_arg1 (by decide))).trans (W23_main_arg1 m ρ c),
       (h c _ (mem_uc main_arg2 (by decide))).trans (W23_main_arg2 m ρ c),
       (h c _ (mem_uc main_arg3 (by decide))).trans (W23_main_arg3 m ρ c),
       (h c _ (mem_uc main_arg4 (by decide))).trans (W23_main_arg4 m ρ c),
       (h c _ (mem_uc main_arg5 (by decide))).trans (W23_main_arg5 m ρ c),
       (h c _ (mem_uc main_arg6 (by decide))).trans (W23_main_arg6 m ρ c),
       (h c _ (mem_uc main_arg7 (by decide))).trans (W23_main_arg7 m ρ c),
       (h c _ (mem_uc main_arg8 (by decide))).trans (W23_main_arg8 m ρ c)⟩)

end Cert.KernelIdeal.Named

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«172271_j20693152432416_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.Body.lean ====
/-
  What one grid point of each of the five dense kernels computes, read at an entry.

  Every one of the five kernels multiplies a block of 5000 rows of its left operand by its whole right operand on the
  matrix unit, after narrowing both operands to a shorter float format (the four later kernels first recast each operand
  to its own shape), into an accumulator of zeros.  At the ideal values a float is an extended real and a change of
  format is the identity, so the entry (p, q) of the block's result is the sum over k of x (r, k) * w (k, q), where r is
  the row of the whole left operand that the block's row p is: the entry (r, q) of the whole matrix product.  Nothing is
  assumed finite; both sides are the same sum of the same products.
-/
import proofs.«172271_j20693152432416_1_alg».proof.Proof.Gen.KernelIdeal.Skeleton
import proofs.«172271_j20693152432416_1_alg».proof.Proof.LibRowBlocks
import Idealize.ShloMosaic.Lib.ValueIdx
import Idealize.ShloMosaic.Lib.Pipeline.Value

noncomputable section

namespace Cert.KernelIdeal.Dense

open Idealize.ShloMosaic Idealize.ShloMosaic.ValueIdx Cert.KernelIdeal Cert.KernelIdeal.Gen

/-- The first kernel (contraction length 128): entry (p, q) of a block's product is entry (r, q) of x · w when the
    block's row p is row r of x and the block's weights are w. -/
theorem pay0_apply (x : FVec Ideal S100000x128 .f32) (w : FVec Ideal S128x64 .f32)
    (x0 : Vec Ideal S5000x128 .f32) (x1 : Vec Ideal S128x64 .f32) (p : Fin 5000) (r : Fin 100000) (q : Fin 64)
    (hx : ∀ k : Fin 128, x0 (ix2 p k) = x (ix2 r k)) (hw : ∀ k : Fin 128, x1 (ix2 k q) = w (ix2 k q)) :
    k0_pay1 (F := Ideal) x0 x1 (ix2 p q) = Host.dotGeneral (F := Ideal) (DotDims.plain 100000 128 64) none x w (ix2 r q) := by
  unfold k0_pay1
  exact Cert.Lib.RowBlocks.matmul_rows_eq_dotGeneral none none x w _ _ p r q (fun k => hx k) (fun k => hw k)

/-- The later kernels (contraction length 64, both operands first recast to their own shapes). -/
theorem pay1_apply (x : FVec Ideal S100000x64 .f32) (w : FVec Ideal S64x64 .f32)
    (x0 : Vec Ideal S5000x64 .f32) (x1 : Vec Ideal S64x64 .f32) (p : Fin 5000) (r : Fin 100000) (q : Fin 64)
    (hx : ∀ k : Fin 64, x0 (ix2 p k) = x (ix2 r k)) (hw : ∀ k : Fin 64, x1 (ix2 k q) = w (ix2 k q)) :
    k1_pay1 (F := Ideal) x0 x1 (ix2 p q) = Host.dotGeneral (F := Ideal) (DotDims.plain 100000 64 64) none x w (ix2 r q) := by
  unfold k1_pay1
  refine Cert.Lib.RowBlocks.matmul_rows_eq_dotGeneral none none x w _ _ p r q (fun k => ?_) (fun k => ?_)
  · show shapeCast S5000x64 x0 shapeCasts_S5000x64_S5000x64 (ix2 p k) = x (ix2 r k)
    rw [shapeCast_self]; exact hx k
  · show shapeCast S64x64 x1 shapeCasts_S64x64_S64x64 (ix2 k q) = w (ix2 k q)
    rw [shapeCast_self]; exact hw k

/-- The third, fourth and fifth kernels' bodies are the second's, operation for operation. -/
theorem pay2_eq : k2_pay1 (F := Ideal) = k1_pay1 := rfl
theorem pay3_eq : k3_pay1 (F := Ideal) = k1_pay1 := rfl
theorem pay4_eq : k4_pay1 (F := Ideal) = k1_pay1 := rfl

end Cert.KernelIdeal.Dense

end
-- ==== Proof.Region0.lean ====
/-
  Region 0: the array the first dense kernel leaves is the whole matrix product.

  The grid has 20 points; point t fetches rows 5000 t … 5000 t + 4999 of the left operand and the whole right operand,
  and writes back rows 5000 t … 5000 t + 4999 of the output, all 64 columns.  By the body's entry law each written row
  block is that block of rows of the whole product x · w of the two operand arrays as the region finds them, and the 20
  blocks tile the 100000 rows, so the output array ends holding x · w.
-/
import proofs.«172271_j20693152432416_1_alg».proof.Proof.Gen.KernelIdeal.Frame
import proofs.«172271_j20693152432416_1_alg».proof.Proof.Body
import Idealize.ShloMosaic.Lib.Pipeline.Value

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets0 : (![0, 0] : Fin 2 → Nat) = fun _ => 0 := funext fun a => by fin_cases a <;> rfl

/-- The whole product of the region's two operand arrays, as the region finds them. -/
def prod0 (c : Dev nD) : FVec Ideal S100000x64 .f32 :=
  Host.dotGeneral (F := Ideal) (φ₁ := .f32) (φ₂ := .f32) (DotDims.plain 100000 128 64) none
    (V c (Pipeline.arrRef spec0 0) : FVec Ideal S100000x128 .f32) (V c (Pipeline.arrRef spec0 1) : FVec Ideal S128x64 .f32)

/-- The printed index maps, decided over the 20 grid points: the left operand's and the output's block row is the
    point's number, every other block coordinate is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the whole product. -/
theorem flushed0_eq (c : Dev nD) (t : Fin cfg0.N) :
    (dat0 V c).flushed 2 t = ((cfg0.win 2).blk t).view.read (Elt Ideal) (prod0 V c) := by
  show (cfg0.win 2).cut (grid0.coords t) ((dat0 V c).after 2 t) = _
  rw [after0_2]
  unfold out0_2
  rw [View.canon_unit_zero zero_offsets0]
  simp only [View.ld_unit_zero (S := S5000x128) zero_offsets0, View.ld_unit_zero (S := S128x64) zero_offsets0]
  obtain ⟨e0, e1, e2, e3, e4, e5⟩ := idx_facts0 t
  have ht : t.val < 20 := t.isLt
  funext j
  obtain ⟨p, q, rfl⟩ : ∃ (p : Fin 5000) (q : Fin 64), j = ix2 p q := ⟨j 0, j 1, eq_ix2 j⟩
  have hr : t.val * 5000 + p.val < 100000 := by have := p.isLt; omega
  show k0_pay1 (iblk0 V c 0 t) (iblk0 V c 1 t) (ix2 p q) = prod0 V c (((cfg0.win 2).blk t).view.emb (ix2 p q))
  have hout : ((cfg0.win 2).blk t).view.emb (ix2 p q) = ix2 (⟨t.val * 5000 + p.val, hr⟩ : Fin 100000) q := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * q.val = q.val; omega
  rw [hout]
  unfold prod0
  refine pay0_apply _ _ _ _ p ⟨t.val * 5000 + p.val, hr⟩ q (fun k => ?_) (fun k => ?_)
  · show V c (Pipeline.arrRef spec0 0) (((cfg0.win 0).blk t).view.emb (ix2 p k)) = V c (Pipeline.arrRef spec0 0) (ix2 (⟨t.val * 5000 + p.val, hr⟩ : Fin 100000) k)
    refine congrArg _ (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · show V c (Pipeline.arrRef spec0 1) (((cfg0.win 1).blk t).view.emb (ix2 k q)) = V c (Pipeline.arrRef spec0 1) (ix2 k q)
    refine congrArg _ (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega

/-- An index of the output array lies in point t's block exactly when its row is one of the block's 5000 rows. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every index of the output array is in some point's block: the block of row r is point r / 5000. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk0]
  obtain ⟨e0, e1, e2, e3, e4, e5⟩ := idx_facts0 ⟨(i 0).val / 5000, by rw [hN]; omega⟩
  intro a
  match a with
  | ⟨0, _⟩ => show win0_2.index _ (0 : Fin 2) * 5000 ≤ (i 0).val ∧ (i 0).val < win0_2.index _ (0 : Fin 2) * 5000 + 5000; rw [e4]; show (i 0).val / 5000 * 5000 ≤ (i 0).val ∧ (i 0).val < (i 0).val / 5000 * 5000 + 5000; omega
  | ⟨1, _⟩ => show win0_2.index _ (1 : Fin 2) * 64 ≤ (i 1).val ∧ (i 1).val < win0_2.index _ (1 : Fin 2) * 64 + 64; rw [e5]; omega

/-- The output array after the region is the whole product of the operand arrays as the region finds them. -/
theorem final0 (c : Dev nD) : (dat0 V c).arrAt 2 cfg0.N = prod0 V c :=
  (dat0 V c).arrAt_eq_of_cover 2 (prod0 V c) (fun t _ => flushed0_eq V c t) (cover0)

end Cert.KernelIdeal.Dense

end
-- ==== Proof.Region1.lean ====
/-
  Region 1: the array the second dense kernel leaves is the whole matrix product.

  The grid has 20 points; point t fetches rows 5000 t … 5000 t + 4999 of the left operand and the whole right operand,
  and writes back rows 5000 t … 5000 t + 4999 of the output, all 64 columns.  By the body's entry law each written row
  block is that block of rows of the whole product x · w of the two operand arrays as the region finds them, and the 20
  blocks tile the 100000 rows, so the output array ends holding x · w.
-/
import proofs.«172271_j20693152432416_1_alg».proof.Proof.Gen.KernelIdeal.Frame
import proofs.«172271_j20693152432416_1_alg».proof.Proof.Body
import Idealize.ShloMosaic.Lib.Pipeline.Value

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets1 : (![0, 0] : Fin 2 → Nat) = fun _ => 0 := funext fun a => by fin_cases a <;> rfl

/-- The whole product of the region's two operand arrays, as the region finds them. -/
def prod1 (c : Dev nD) : FVec Ideal S100000x64 .f32 :=
  Host.dotGeneral (F := Ideal) (φ₁ := .f32) (φ₂ := .f32) (DotDims.plain 100000 64 64) none
    (V c (Pipeline.arrRef spec1 0) : FVec Ideal S100000x64 .f32) (V c (Pipeline.arrRef spec1 1) : FVec Ideal S64x64 .f32)

/-- The printed index maps, decided over the 20 grid points: the left operand's and the output's block row is the
    point's number, every other block coordinate is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the whole product. -/
theorem flushed1_eq (c : Dev nD) (t : Fin cfg1.N) :
    (dat1 V c).flushed 2 t = ((cfg1.win 2).blk t).view.read (Elt Ideal) (prod1 V c) := by
  show (cfg1.win 2).cut (grid1.coords t) ((dat1 V c).after 2 t) = _
  rw [after1_2]
  unfold out1_2
  rw [View.canon_unit_zero zero_offsets1]
  simp only [View.ld_unit_zero (S := S5000x64) zero_offsets1, View.ld_unit_zero (S := S64x64) zero_offsets1]
  obtain ⟨e0, e1, e2, e3, e4, e5⟩ := idx_facts1 t
  have ht : t.val < 20 := t.isLt
  funext j
  obtain ⟨p, q, rfl⟩ : ∃ (p : Fin 5000) (q : Fin 64), j = ix2 p q := ⟨j 0, j 1, eq_ix2 j⟩
  have hr : t.val * 5000 + p.val < 100000 := by have := p.isLt; omega
  show k1_pay1 (iblk1 V c 0 t) (iblk1 V c 1 t) (ix2 p q) = prod1 V c (((cfg1.win 2).blk t).view.emb (ix2 p q))
  have hout : ((cfg1.win 2).blk t).view.emb (ix2 p q) = ix2 (⟨t.val * 5000 + p.val, hr⟩ : Fin 100000) q := by
    funext a; apply Fin.ext
    match a with
    | ⟨0, _⟩ => show win1_2.index t (0 : Fin 2) * 5000 + 1 * p.val = t.val * 5000 + p.val; omega
    | ⟨1, _⟩ => show win1_2.index t (1 : Fin 2) * 64 + 1 * q.val = q.val; omega
  rw [hout]
  unfold prod1
  refine pay1_apply _ _ _ _ p ⟨t.val * 5000 + p.val, hr⟩ q (fun k => ?_) (fun k => ?_)
  · show V c (Pipeline.arrRef spec1 0) (((cfg1.win 0).blk t).view.emb (ix2 p k)) = V c (Pipeline.arrRef spec1 0) (ix2 (⟨t.val * 5000 + p.val, hr⟩ : Fin 100000) k)
    refine congrArg _ (funext fun a => Fin.ext ?_)
    match a with
    | ⟨0, _⟩ => show win1_0.index t (0 : Fin 2) * 5000 + 1 * p.val = t.val * 5000 + p.val; omega
    | ⟨1, _⟩ => show win1_0.index t (1 : Fin 2) * 64 + 1 * k.val = k.val; omega
  · show V c (Pipeline.arrRef spec1 1) (((cfg1.win 1).blk t).view.emb (ix2 k q)) = V c (Pipeline.arrRef spec1 1) (ix2 k q)
    refine congrArg _ (funext fun a => Fin.ext ?_)
    match a with
    | ⟨0, _⟩ => show win1_1.index t (0 : Fin 2) * 64 + 1 * k.val = k.val; omega
    | ⟨1, _⟩ => show win1_1.index t (1 : Fin 2) * 64 + 1 * q.val = q.val; omega

/-- An index of the output array lies in point t's block exactly when its row is one of the block's 5000 rows. -/
theorem mem_blk1 (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v52).slice (win1_2.rect t)).set ↔ _
  rw [View.set_slice_whole, Rect.mem_set_unit]
  exact Iff.rfl

/-- Every index of the output array is in some point's block: the block of row r is point r / 5000. -/
theorem cover1 (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  refine ⟨⟨(i 0).val / 5000, by rw [hN]; omega⟩, flush1_2 _, ?_⟩
  rw [mem_blk1]
  obtain ⟨e0, e1, e2, e3, e4, e5⟩ := idx_facts1 ⟨(i 0).val / 5000, by rw [hN]; omega⟩
  intro a
  match a with
  | ⟨0, _⟩ => show win1_2.index _ (0 : Fin 2) * 5000 ≤ (i 0).val ∧ (i 0).val < win1_2.index _ (0 : Fin 2) * 5000 + 5000; rw [e4]; show (i 0).val / 5000 * 5000 ≤ (i 0).val ∧ (i 0).val < (i 0).val / 5000 * 5000 + 5000; omega
  | ⟨1, _⟩ => show win1_2.index _ (1 : Fin 2) * 64 ≤ (i 1).val ∧ (i 1).val < win1_2.index _ (1 : Fin 2) * 64 + 64; rw [e5]; omega

/-- The output array after the region is the whole product of the operand arrays as the region finds them. -/
theorem final1 (c : Dev nD) : (dat1 V c).arrAt 2 cfg1.N = prod1 V c :=
  (dat1 V c).arrAt_eq_of_cover 2 (prod1 V c) (fun t _ => flushed1_eq V c t) (cover1)

end Cert.KernelIdeal.Dense

end
-- ==== Proof.Region2.lean ====
/-
  Region 2: the array the third dense kernel leaves is the whole matrix product.

  The grid has 20 points; point t fetches rows 5000 t … 5000 t + 4999 of the left operand and the whole right operand,
  and writes back rows 5000 t … 5000 t + 4999 of the output, all 64 columns.  By the body's entry law each written row
  block is that block of rows of the whole product x · w of the two operand arrays as the region finds them, and the 20
  blocks tile the 100000 rows, so the output array ends holding x · w.
-/
import proofs.«172271_j20693152432416_1_alg».proof.Proof.Gen.KernelIdeal.Frame
import proofs.«172271_j20693152432416_1_alg».proof.Proof.Body
import Idealize.ShloMosaic.Lib.Pipeline.Value

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets2 : (![0, 0] : Fin 2 → Nat) = fun _ => 0 := funext fun a => by fin_cases a <;> rfl

/-- The whole product of the region's two operand arrays, as the region finds them. -/
def prod2 (c : Dev nD) : FVec Ideal S100000x64 .f32 :=
  Host.dotGeneral (F := Ideal) (φ₁ := .f32) (φ₂ := .f32) (DotDims.plain 100000 64 64) none
    (V c (Pipeline.arrRef spec2 0) : FVec Ideal S100000x64 .f32) (V c (Pipeline.arrRef spec2 1) : FVec Ideal S64x64 .f32)

/-- The printed index maps, decided over the 20 grid points: the left operand's and the output's block row is the
    point's number, every other block coordinate is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the whole product. -/
theorem flushed2_eq (c : Dev nD) (t : Fin cfg2.N) :
    (dat2 V c).flushed 2 t = ((cfg2.win 2).blk t).view.read (Elt Ideal) (prod2 V c) := by
  show (cfg2.win 2).cut (grid2.coords t) ((dat2 V c).after 2 t) = _
  rw [after2_2]
  unfold out2_2
  rw [View.canon_unit_zero zero_offsets2]
  simp only [View.ld_unit_zero (S := S5000x64) zero_offsets2, View.ld_unit_zero (S := S64x64) zero_offsets2]
  obtain ⟨e0, e1, e2, e3, e4, e5⟩ := idx_facts2 t
  have ht : t.val < 20 := t.isLt
  funext j
  obtain ⟨p, q, rfl⟩ : ∃ (p : Fin 5000) (q : Fin 64), j = ix2 p q := ⟨j 0, j 1, eq_ix2 j⟩
  have hr : t.val * 5000 + p.val < 100000 := by have := p.isLt; omega
  show k2_pay1 (iblk2 V c 0 t) (iblk2 V c 1 t) (ix2 p q) = prod2 V c (((cfg2.win 2).blk t).view.emb (ix2 p q))
  have hout : ((cfg2.win 2).blk t).view.emb (ix2 p q) = ix2 (⟨t.val * 5000 + p.val, hr⟩ : Fin 100000) q := by
    funext a; apply Fin.ext
    match a with
    | ⟨0, _⟩ => show win2_2.index t (0 : Fin 2) * 5000 + 1 * p.val = t.val * 5000 + p.val; omega
    | ⟨1, _⟩ => show win2_2.index t (1 : Fin 2) * 64 + 1 * q.val = q.val; omega
  rw [hout]
  unfold prod2
  rw [pay2_eq]
  refine pay1_apply _ _ _ _ p ⟨t.val * 5000 + p.val, hr⟩ q (fun k => ?_) (fun k => ?_)
  · show V c (Pipeline.arrRef spec2 0) (((cfg2.win 0).blk t).view.emb (ix2 p k)) = V c (Pipeline.arrRef spec2 0) (ix2 (⟨t.val * 5000 + p.val, hr⟩ : Fin 100000) k)
    refine congrArg _ (funext fun a => Fin.ext ?_)
    match a with
    | ⟨0, _⟩ => show win2_0.index t (0 : Fin 2) * 5000 + 1 * p.val = t.val * 5000 + p.val; omega
    | ⟨1, _⟩ => show win2_0.index t (1 : Fin 2) * 64 + 1 * k.val = k.val; omega
  · show V c (Pipeline.arrRef spec2 1) (((cfg2.win 1).blk t).view.emb (ix2 k q)) = V c (Pipeline.arrRef spec2 1) (ix2 k q)
    refine congrArg _ (funext fun a => Fin.ext ?_)
    match a with
    | ⟨0, _⟩ => show win2_1.index t (0 : Fin 2) * 64 + 1 * k.val = k.val; omega
    | ⟨1, _⟩ => show win2_1.index t (1 : Fin 2) * 64 + 1 * q.val = q.val; omega

/-- An index of the output array lies in point t's block exactly when its row is one of the block's 5000 rows. -/
theorem mem_blk2 (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v74).slice (win2_2.rect t)).set ↔ _
  rw [View.set_slice_whole, Rect.mem_set_unit]
  exact Iff.rfl

/-- Every index of the output array is in some point's block: the block of row r is point r / 5000. -/
theorem cover2 (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_2 _, ?_⟩
  rw [mem_blk2]
  obtain ⟨e0, e1, e2, e3, e4, e5⟩ := idx_facts2 ⟨(i 0).val / 5000, by rw [hN]; omega⟩
  intro a
  match a with
  | ⟨0, _⟩ => show win2_2.index _ (0 : Fin 2) * 5000 ≤ (i 0).val ∧ (i 0).val < win2_2.index _ (0 : Fin 2) * 5000 + 5000; rw [e4]; show (i 0).val / 5000 * 5000 ≤ (i 0).val ∧ (i 0).val < (i 0).val / 5000 * 5000 + 5000; omega
  | ⟨1, _⟩ => show win2_2.index _ (1 : Fin 2) * 64 ≤ (i 1).val ∧ (i 1).val < win2_2.index _ (1 : Fin 2) * 64 + 64; rw [e5]; omega

/-- The output array after the region is the whole product of the operand arrays as the region finds them. -/
theorem final2 (c : Dev nD) : (dat2 V c).arrAt 2 cfg2.N = prod2 V c :=
  (dat2 V c).arrAt_eq_of_cover 2 (prod2 V c) (fun t _ => flushed2_eq V c t) (cover2)

end Cert.KernelIdeal.Dense

end
-- ==== Proof.Region3.lean ====
/-
  Region 3: the array the fourth dense kernel leaves is the whole matrix product.

  The grid has 20 points; point t fetches rows 5000 t … 5000 t + 4999 of the left operand and the whole right operand,
  and writes back rows 5000 t … 5000 t + 4999 of the output, all 64 columns.  By the body's entry law each written row
  block is that block of rows of the whole product x · w of the two operand arrays as the region finds them, and the 20
  blocks tile the 100000 rows, so the output array ends holding x · w.
-/
import proofs.«172271_j20693152432416_1_alg».proof.Proof.Gen.KernelIdeal.Frame
import proofs.«172271_j20693152432416_1_alg».proof.Proof.Body
import Idealize.ShloMosaic.Lib.Pipeline.Value

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets3 : (![0, 0] : Fin 2 → Nat) = fun _ => 0 := funext fun a => by fin_cases a <;> rfl

/-- The whole product of the region's two operand arrays, as the region finds them. -/
def prod3 (c : Dev nD) : FVec Ideal S100000x64 .f32 :=
  Host.dotGeneral (F := Ideal) (φ₁ := .f32) (φ₂ := .f32) (DotDims.plain 100000 64 64) none
    (V c (Pipeline.arrRef spec3 0) : FVec Ideal S100000x64 .f32) (V c (Pipeline.arrRef spec3 1) : FVec Ideal S64x64 .f32)

/-- The printed index maps, decided over the 20 grid points: the left operand's and the output's block row is the
    point's number, every other block coordinate is zero. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of the whole product. -/
theorem flushed3_eq (c : Dev nD) (t : Fin cfg3.N) :
    (dat3 V c).flushed 2 t = ((cfg3.win 2).blk t).view.read (Elt Ideal) (prod3 V c) := by
  show (cfg3.win 2).cut (grid3.coords t) ((dat3 V c).after 2 t) = _
  rw [after3_2]
  unfold out3_2
  rw [View.canon_unit_zero zero_offsets3]
  simp only [View.ld_unit_zero (S := S5000x64) zero_offsets3, View.ld_unit_zero (S := S64x64) zero_offsets3]
  obtain ⟨e0, e1, e2, e3, e4, e5⟩ := idx_facts3 t
  have ht : t.val < 20 := t.isLt
  funext j
  obtain ⟨p, q, rfl⟩ : ∃ (p : Fin 5000) (q : Fin 64), j = ix2 p q := ⟨j 0, j 1, eq_ix2 j⟩
  have hr : t.val * 5000 + p.val < 100000 := by have := p.isLt; omega
  show k3_pay1 (iblk3 V c 0 t) (iblk3 V c 1 t) (ix2 p q) = prod3 V c (((cfg3.win 2).blk t).view.emb (ix2 p q))
  have hout : ((cfg3.win 2).blk t).view.emb (ix2 p q) = ix2 (⟨t.val * 5000 + p.val, hr⟩ : Fin 100000) q := by
    funext a; apply Fin.ext
    match a with
    | ⟨0, _⟩ => show win3_2.index t (0 : Fin 2) * 5000 + 1 * p.val = t.val * 5000 + p.val; omega
    | ⟨1, _⟩ => show win3_2.index t (1 : Fin 2) * 64 + 1 * q.val = q.val; omega
  rw [hout]
  unfold prod3
  rw [pay3_eq]
  refine pay1_apply _ _ _ _ p ⟨t.val * 5000 + p.val, hr⟩ q (fun k => ?_) (fun k => ?_)
  · show V c (Pipeline.arrRef spec3 0) (((cfg3.win 0).blk t).view.emb (ix2 p k)) = V c (Pipeline.arrRef spec3 0) (ix2 (⟨t.val * 5000 + p.val, hr⟩ : Fin 100000) k)
    refine congrArg _ (funext fun a => Fin.ext ?_)
    match a with
    | ⟨0, _⟩ => show win3_0.index t (0 : Fin 2) * 5000 + 1 * p.val = t.val * 5000 + p.val; omega
    | ⟨1, _⟩ => show win3_0.index t (1 : Fin 2) * 64 + 1 * k.val = k.val; omega
  · show V c (Pipeline.arrRef spec3 1) (((cfg3.win 1).blk t).view.emb (ix2 k q)) = V c (Pipeline.arrRef spec3 1) (ix2 k q)
    refine congrArg _ (funext fun a => Fin.ext ?_)
    match a with
    | ⟨0, _⟩ => show win3_1.index t (0 : Fin 2) * 64 + 1 * k.val = k.val; omega
    | ⟨1, _⟩ => show win3_1.index t (1 : Fin 2) * 64 + 1 * q.val = q.val; omega

/-- An index of the output array lies in point t's block exactly when its row is one of the block's 5000 rows. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v96).slice (win3_2.rect t)).set ↔ _
  rw [View.set_slice_whole, Rect.mem_set_unit]
  exact Iff.rfl

/-- Every index of the output array is in some point's block: the block of row r is point r / 5000. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  refine ⟨⟨(i 0).val / 5000, by rw [hN]; omega⟩, flush3_2 _, ?_⟩
  rw [mem_blk3]
  obtain ⟨e0, e1, e2, e3, e4, e5⟩ := idx_facts3 ⟨(i 0).val / 5000, by rw [hN]; omega⟩
  intro a
  match a with
  | ⟨0, _⟩ => show win3_2.index _ (0 : Fin 2) * 5000 ≤ (i 0).val ∧ (i 0).val < win3_2.index _ (0 : Fin 2) * 5000 + 5000; rw [e4]; show (i 0).val / 5000 * 5000 ≤ (i 0).val ∧ (i 0).val < (i 0).val / 5000 * 5000 + 5000; omega
  | ⟨1, _⟩ => show win3_2.index _ (1 : Fin 2) * 64 ≤ (i 1).val ∧ (i 1).val < win3_2.index _ (1 : Fin 2) * 64 + 64; rw [e5]; omega

/-- The output array after the region is the whole product of the operand arrays as the region finds them. -/
theorem final3 (c : Dev nD) : (dat3 V c).arrAt 2 cfg3.N = prod3 V c :=
  (dat3 V c).arrAt_eq_of_cover 2 (prod3 V c) (fun t _ => flushed3_eq V c t) (cover3)

end Cert.KernelIdeal.Dense

end
-- ==== Proof.Region4.lean ====
/-
  Region 4: the array the fifth dense kernel leaves is the whole matrix product.

  The grid has 20 points; point t fetches rows 5000 t … 5000 t + 4999 of the left operand and the whole right operand,
  and writes back rows 5000 t … 5000 t + 4999 of the output, all 64 columns.  By the body's entry law each written row
  block is that block of rows of the whole product x · w of the two operand arrays as the region finds them, and the 20
  blocks tile the 100000 rows, so the output array ends holding x · w.
-/
import proofs.«172271_j20693152432416_1_alg».proof.Proof.Gen.KernelIdeal.Frame
import proofs.«172271_j20693152432416_1_alg».proof.Proof.Body
import Idealize.ShloMosaic.Lib.Pipeline.Value

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zero_offsets4 : (![0, 0] : Fin 2 → Nat) = fun _ => 0 := funext fun a => by fin_cases a <;> rfl

/-- The whole product of the region's two operand arrays, as the region finds them. -/
def prod4 (c : Dev nD) : FVec Ideal S100000x64 .f32 :=
  Host.dotGeneral (F := Ideal) (φ₁ := .f32) (φ₂ := .f32) (DotDims.plain 100000 64 64) none
    (V c (Pipeline.arrRef spec4 0) : FVec Ideal S100000x64 .f32) (V c (Pipeline.arrRef spec4 1) : FVec Ideal S64x64 .f32)

/-- The printed index maps, decided over the 20 grid points: the left operand's and the output's block row is the
    point's number, every other block coordinate is zero. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- What point t writes back is block t of the whole product. -/
theorem flushed4_eq (c : Dev nD) (t : Fin cfg4.N) :
    (dat4 V c).flushed 2 t = ((cfg4.win 2).blk t).view.read (Elt Ideal) (prod4 V c) := by
  show (cfg4.win 2).cut (grid4.coords t) ((dat4 V c).after 2 t) = _
  rw [after4_2]
  unfold out4_2
  rw [View.canon_unit_zero zero_offsets4]
  simp only [View.ld_unit_zero (S := S5000x64) zero_offsets4, View.ld_unit_zero (S := S64x64) zero_offsets4]
  obtain ⟨e0, e1, e2, e3, e4, e5⟩ := idx_facts4 t
  have ht : t.val < 20 := t.isLt
  funext j
  obtain ⟨p, q, rfl⟩ : ∃ (p : Fin 5000) (q : Fin 64), j = ix2 p q := ⟨j 0, j 1, eq_ix2 j⟩
  have hr : t.val * 5000 + p.val < 100000 := by have := p.isLt; omega
  show k4_pay1 (iblk4 V c 0 t) (iblk4 V c 1 t) (ix2 p q) = prod4 V c (((cfg4.win 2).blk t).view.emb (ix2 p q))
  have hout : ((cfg4.win 2).blk t).view.emb (ix2 p q) = ix2 (⟨t.val * 5000 + p.val, hr⟩ : Fin 100000) q := by
    funext a; apply Fin.ext
    match a with
    | ⟨0, _⟩ => show win4_2.index t (0 : Fin 2) * 5000 + 1 * p.val = t.val * 5000 + p.val; omega
    | ⟨1, _⟩ => show win4_2.index t (1 : Fin 2) * 64 + 1 * q.val = q.val; omega
  rw [hout]
  unfold prod4
  rw [pay4_eq]
  refine pay1_apply _ _ _ _ p ⟨t.val * 5000 + p.val, hr⟩ q (fun k => ?_) (fun k => ?_)
  · show V c (Pipeline.arrRef spec4 0) (((cfg4.win 0).blk t).view.emb (ix2 p k)) = V c (Pipeline.arrRef spec4 0) (ix2 (⟨t.val * 5000 + p.val, hr⟩ : Fin 100000) k)
    refine congrArg _ (funext fun a => Fin.ext ?_)
    match a with
    | ⟨0, _⟩ => show win4_0.index t (0 : Fin 2) * 5000 + 1 * p.val = t.val * 5000 + p.val; omega
    | ⟨1, _⟩ => show win4_0.index t (1 : Fin 2) * 64 + 1 * k.val = k.val; omega
  · show V c (Pipeline.arrRef spec4 1) (((cfg4.win 1).blk t).view.emb (ix2 k q)) = V c (Pipeline.arrRef spec4 1) (ix2 k q)
    refine congrArg _ (funext fun a => Fin.ext ?_)
    match a with
    | ⟨0, _⟩ => show win4_1.index t (0 : Fin 2) * 64 + 1 * k.val = k.val; omega
    | ⟨1, _⟩ => show win4_1.index t (1 : Fin 2) * 64 + 1 * q.val = q.val; omega

/-- An index of the output array lies in point t's block exactly when its row is one of the block's 5000 rows. -/
theorem mem_blk4 (t : Fin cfg4.N) (i : S100000x64.Idx) :
    i ∈ ((cfg4.win 2).blk t).view.set ↔ ∀ a : Fin 2, win4_2.index t a * S5000x64.size a ≤ (i a).val ∧ (i a).val < win4_2.index t a * S5000x64.size a + S5000x64.size a := by
  show i ∈ ((View.whole main_v118).slice (win4_2.rect t)).set ↔ _
  rw [View.set_slice_whole, Rect.mem_set_unit]
  exact Iff.rfl

/-- Every index of the output array is in some point's block: the block of row r is point r / 5000. -/
theorem cover4 (i : S100000x64.Idx) : ∃ t : Fin cfg4.N, (cfg4.win 2).flush t = true ∧ i ∈ ((cfg4.win 2).blk t).view.set := by
  have hi0 : (i 0).val < 100000 := (i 0).isLt
  have hi1 : (i 1).val < 64 := (i 1).isLt
  have hN : cfg4.N = 20 := N_4
  refine ⟨⟨(i 0).val / 5000, by rw [hN]; omega⟩, flush4_2 _, ?_⟩
  rw [mem_blk4]
  obtain ⟨e0, e1, e2, e3, e4, e5⟩ := idx_facts4 ⟨(i 0).val / 5000, by rw [hN]; omega⟩
  intro a
  match a with
  | ⟨0, _⟩ => show win4_2.index _ (0 : Fin 2) * 5000 ≤ (i 0).val ∧ (i 0).val < win4_2.index _ (0 : Fin 2) * 5000 + 5000; rw [e4]; show (i 0).val / 5000 * 5000 ≤ (i 0).val ∧ (i 0).val < (i 0).val / 5000 * 5000 + 5000; omega
  | ⟨1, _⟩ => show win4_2.index _ (1 : Fin 2) * 64 ≤ (i 1).val ∧ (i 1).val < win4_2.index _ (1 : Fin 2) * 64 + 64; rw [e5]; omega

/-- The output array after the region is the whole product of the operand arrays as the region finds them. -/
theorem final4 (c : Dev nD) : (dat4 V c).arrAt 2 cfg4.N = prod4 V c :=
  (dat4 V c).arrAt_eq_of_cover 2 (prod4 V c) (fun t _ => flushed4_eq V c t) (cover4)

end Cert.KernelIdeal.Dense

end
-- ==== Proof.LibAfterAppend.lean ====
/-
  A general lemma on straight lines of host operations: the buffer contents after two stretches run one after the
  other are the contents after their concatenation — so a long line can be read stretch by stretch.
-/
import Idealize.ShloMosaic.Lib.StableHlo.Run

namespace Cert.LibAfterAppend

open Idealize.ShloMosaic Idealize.ShloMosaic.StableHlo

/-- The contents after `l₁ ++ l₂` from `V` are the contents after `l₂` from the contents after `l₁` from `V`, for any
    topology, buffer signature and value types. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.LibAfterAppend
-- ==== Proof.RefPieces.lean ====
/-
  The reference program's line of 214 host operations, cut where the kernel program is cut.

  The kernel program runs a stretch of host operations, then a dense kernel, then the next stretch, and so on: six
  stretches and five kernels.  The reference runs the same operations in the same order with one whole matrix product
  where the kernel program launches a dense kernel.  Here the reference's line is cut into six consecutive pieces: the
  first stretch (40 operations), then four pieces of 27 operations (a matrix product followed by the 26 operations of
  the next stretch), then the last piece (the fifth product and the 65 operations after it).  Running the pieces one
  after the other is running the whole line.
-/
import proofs.«172271_j20693152432416_1_alg».proof.Proof.RefRun
import proofs.«172271_j20693152432416_1_alg».proof.Proof.LibAfterAppend

noncomputable section

namespace Cert.ReferenceIdeal.Pieces

open Idealize.ShloMosaic Idealize.ShloMosaic.StableHlo Cert.ReferenceIdeal Cert.ReferenceIdeal.ValueP

variable {F : FTy → Type} [FloatOps F]

/-- The operations from the first matrix product on. -/
abbrev rest0 : List (HloOp τ sig (Elt F)) := ops.drop 40
/-- The operations from the second matrix product on. -/
abbrev rest1 : List (HloOp τ sig (Elt F)) := (rest0 (F := F)).drop 27
/-- The operations from the third matrix product on. -/
abbrev rest2 : List (HloOp τ sig (Elt F)) := (rest1 (F := F)).drop 27
/-- The operations from the fourth matrix product on. -/
abbrev rest3 : List (HloOp τ sig (Elt F)) := (rest2 (F := F)).drop 27
/-- The last piece: the fifth matrix product and everything after it. -/
abbrev rest4 : List (HloOp τ sig (Elt F)) := (rest3 (F := F)).drop 27

/-- The first piece: the 40 operations before the first matrix product. -/
abbrev piece0 : List (HloOp τ sig (Elt F)) := ops.take 40
/-- The first matrix product and the 26 operations up to the second. -/
abbrev piece1 : List (HloOp τ sig (Elt F)) := (rest0 (F := F)).take 27
/-- The second matrix product and the 26 operations up to the third. -/
abbrev piece2 : List (HloOp τ sig (Elt F)) := (rest1 (F := F)).take 27
/-- The third matrix product and the 26 operations up to the fourth. -/
abbrev piece3 : List (HloOp τ sig (Elt F)) := (rest2 (F := F)).take 27
/-- The fourth matrix product and the 26 operations up to the fifth. -/
abbrev piece4 : List (HloOp τ sig (Elt F)) := (rest3 (F := F)).take 27

/-- A line run up to its n-th operation and then from there on is the line run whole. -/
theorem after_take_drop {τ : Topo} {sig : RefSig} {Val : EltTy → Type} (n : Nat) (l : List (HloOp τ sig Val)) (V : Valuation τ sig Val) :
    after (l.drop n) (after (l.take n) V) = after l V := by
  rw [← Cert.LibAfterAppend.after_append, List.take_append_drop]

/-- The contents after the whole line are the contents after the six pieces, one after the other. -/
theorem after_ops (V : Valuation τ sig (Elt F)) :
    after ops V = after rest4 (after piece4 (after piece3 (after piece2 (after piece1 (after piece0 V))))) := by
  unfold rest4 piece4
  rw [after_take_drop]
  unfold rest3 piece3
  rw [after_take_drop]
  unfold rest2 piece2
  rw [after_take_drop]
  unfold rest1 piece1
  rw [after_take_drop]
  unfold rest0 piece0
  rw [after_take_drop]

end Cert.ReferenceIdeal.Pieces

end
-- ==== Proof.Stretch0.lean ====
/-
  The first stretch of host operations computes the same values in both programs.

  Before the first dense kernel both programs build, from the edge list and the node numbers, the source and target
  node of every edge and self-loop, count each node's in-degree by a scatter-add of ones, take its reciprocal square
  root where the degree is positive, and multiply the two end nodes' factors into one weight per edge.  The operations
  are the same in both programs, so from arguments that agree the three values later layers read (the source list,
  the target list, the edge weights) agree, and so do the arguments themselves, which no operation writes.
-/
import proofs.«172271_j20693152432416_1_alg».proof.Proof.Gen.KernelIdeal.Launch
import proofs.«172271_j20693152432416_1_alg».proof.Proof.RefPieces
import Idealize.ShloMosaic.PureOps.Ideal.Laws

set_option maxRecDepth 16384

noncomputable section

namespace Cert.Stretches

open Idealize.ShloMosaic Idealize.ShloMosaic.StableHlo

/-- The kernel program's buffer contents after its first stretch, from contents `Vk`. -/
abbrev kAfter0 (Vk : Valuation Cert.KernelIdeal.τ Cert.KernelIdeal.sig (Elt Ideal)) : Valuation Cert.KernelIdeal.τ Cert.KernelIdeal.sig (Elt Ideal) :=
  after (Cert.KernelIdeal.Gen.hostOps0_2 (F := Ideal)) (after Cert.KernelIdeal.Gen.hostOps0_1 (after Cert.KernelIdeal.Gen.hostOps0 Vk))

/-- The reference's buffer contents after its first piece, from contents `Vr`. -/
abbrev rAfter0 (Vr : Valuation Cert.ReferenceIdeal.τ Cert.ReferenceIdeal.sig (Elt Ideal)) : Valuation Cert.ReferenceIdeal.τ Cert.ReferenceIdeal.sig (Elt Ideal) :=
  after (Cert.ReferenceIdeal.Pieces.piece0 (F := Ideal)) Vr

set_option maxHeartbeats 4000000 in
/-- If the two programs' buffers agree where the stretch reads them, they agree after it on every buffer a later
    operation still reads. -/
theorem agree0 (Vk : Valuation Cert.KernelIdeal.τ Cert.KernelIdeal.sig (Elt Ideal)) (Vr : Valuation Cert.ReferenceIdeal.τ Cert.ReferenceIdeal.sig (Elt Ideal))
    (h_main_arg0 : Vk (Proc.devRef .tc Cert.KernelIdeal.main_arg0) = Vr (Proc.devRef .tc Cert.ReferenceIdeal.main_arg0))
    (h_main_arg1 : Vk (Proc.devRef .tc Cert.KernelIdeal.main_arg1) = Vr (Proc.devRef .tc Cert.ReferenceIdeal.main_arg1))
    (h_main_arg2 : Vk (Proc.devRef .tc Cert.KernelIdeal.main_arg2) = Vr (Proc.devRef .tc Cert.ReferenceIdeal.main_arg2))
    (h_main_arg3 : Vk (Proc.devRef .tc Cert.KernelIdeal.main_arg3) = Vr (Proc.devRef .tc Cert.ReferenceIdeal.main_arg3))
    (h_main_arg4 : Vk (Proc.devRef .tc Cert.KernelIdeal.main_arg4) = Vr (Proc.devRef .tc Cert.ReferenceIdeal.main_arg4))
    (h_main_arg5 : Vk (Proc.devRef .tc Cert.KernelIdeal.main_arg5) = Vr (Proc.devRef .tc Cert.ReferenceIdeal.main_arg5))
    (h_main_arg6 : Vk (Proc.devRef .tc Cert.KernelIdeal.main_arg6) = Vr (Proc.devRef .tc Cert.ReferenceIdeal.main_arg6))
    (h_main_arg7 : Vk (Proc.devRef .tc Cert.KernelIdeal.main_arg7) = Vr (Proc.devRef .tc Cert.ReferenceIdeal.main_arg7))
    (h_main_arg8 : Vk (Proc.devRef .tc Cert.KernelIdeal.main_arg8) = Vr (Proc.devRef .tc Cert.ReferenceIdeal.main_arg8)) :
    kAfter0 Vk (Proc.devRef .tc Cert.KernelIdeal.main_arg0) = rAfter0 Vr (Proc.devRef .tc Cert.ReferenceIdeal.main_arg0)
      ∧ kAfter0 Vk (Proc.devRef .tc Cert.KernelIdeal.main_arg3) = rAfter0 Vr (Proc.devRef .tc Cert.ReferenceIdeal.main_arg3)
      ∧ kAfter0 Vk (Proc.devRef .tc Cert.KernelIdeal.main_v3) = rAfter0 Vr (Proc.devRef .tc Cert.ReferenceIdeal.main_v3)
      ∧ kAfter0 Vk (Proc.devRef .tc Cert.KernelIdeal.main_v6) = rAfter0 Vr (Proc.devRef .tc Cert.ReferenceIdeal.main_v6)
      ∧ kAfter0 Vk (Proc.devRef .tc Cert.KernelIdeal.main_v29) = rAfter0 Vr (Proc.devRef .tc Cert.ReferenceIdeal.main_v29)
      ∧ kAfter0 Vk (Proc.devRef .tc Cert.KernelIdeal.main_arg2) = rAfter0 Vr (Proc.devRef .tc Cert.ReferenceIdeal.main_arg2)
      ∧ kAfter0 Vk (Proc.devRef .tc Cert.KernelIdeal.main_arg4) = rAfter0 Vr (Proc.devRef .tc Cert.ReferenceIdeal.main_arg4)
      ∧ kAfter0 Vk (Proc.devRef .tc Cert.KernelIdeal.main_arg5) = rAfter0 Vr (Proc.devRef .tc Cert.ReferenceIdeal.main_arg5)
      ∧ kAfter0 Vk (Proc.devRef .tc Cert.KernelIdeal.main_arg6) = rAfter0 Vr (Proc.devRef .tc Cert.ReferenceIdeal.main_arg6)
      ∧ kAfter0 Vk (Proc.devRef .tc Cert.KernelIdeal.main_arg7) = rAfter0 Vr (Proc.devRef .tc Cert.ReferenceIdeal.main_arg7)
      ∧ kAfter0 Vk (Proc.devRef .tc Cert.KernelIdeal.main_arg8) = rAfter0 Vr (Proc.devRef .tc Cert.ReferenceIdeal.main_arg8) := by
  refine ⟨?_, ?_, ?_, ?_, ?_, ?_, ?_, ?_, ?_, ?_, ?_⟩ <;>
    (simp only [kAfter0, rAfter0, Cert.ReferenceIdeal.Pieces.piece0, Cert.ReferenceIdeal.ValueP.ops, List.drop_succ_cons, List.drop_zero, List.take_succ_cons, List.take_zero]
     after_results_simp
     -- the two joined lists (edges followed by self-loops) keep their pieces inside a list of pairs: the pieces' values are read there one rewrite at a time
     repeat (first
       | rw [reshape_result] | rw [unary_result] | rw [nullary_result] | rw [binary_result]
       | (rw [reshape_result_ne]; rotate_left; decide)
       | (rw [unary_result_ne]; rotate_left; decide)
       | (rw [nullary_result_ne]; rotate_left; decide)
       | (rw [binary_result_ne]; rotate_left; decide))
     try rw [h_main_arg1]
     try simp only [h_main_arg0, h_main_arg2, h_main_arg3, h_main_arg4, h_main_arg5, h_main_arg6, h_main_arg7, h_main_arg8]
     try rfl)

end Cert.Stretches

end
-- ==== Proof.Stretch1.lean ====
/-
  The second stretch of host operations computes the same values in both programs.

  The kernel program enters the stretch with the first dense kernel's output array; the reference's piece begins with
  the whole matrix product x · W1.  If that array is the product of the reference's operands, then both programs
  gather the product's rows at the edges' source nodes, scale by the edge weights, scatter-add into the target nodes,
  add the bias and clamp at zero, and both slice the next layer's weights and bias out of the stacked arguments: the
  next layer's input, weights and bias agree, and so does every value carried along.
-/
import proofs.«172271_j20693152432416_1_alg».proof.Proof.Gen.KernelIdeal.Launch
import proofs.«172271_j20693152432416_1_alg».proof.Proof.RefPieces
import Idealize.ShloMosaic.PureOps.Ideal.Laws

set_option maxRecDepth 16384

noncomputable section

namespace Cert.Stretches

open Idealize.ShloMosaic Idealize.ShloMosaic.StableHlo

/-- The kernel program's buffer contents after its second stretch, from contents `Vk`. -/
abbrev kAfter1 (Vk : Valuation Cert.KernelIdeal.τ Cert.KernelIdeal.sig (Elt Ideal)) : Valuation Cert.KernelIdeal.τ Cert.KernelIdeal.sig (Elt Ideal) :=
  after (Cert.KernelIdeal.Gen.hostOps1_2 (F := Ideal)) (after Cert.KernelIdeal.Gen.hostOps1_1 (after Cert.KernelIdeal.Gen.hostOps1 Vk))

/-- The reference's buffer contents after its second piece, from contents `Vr`. -/
abbrev rAfter1 (Vr : Valuation Cert.ReferenceIdeal.τ Cert.ReferenceIdeal.sig (Elt Ideal)) : Valuation Cert.ReferenceIdeal.τ Cert.ReferenceIdeal.sig (Elt Ideal) :=
  after (Cert.ReferenceIdeal.Pieces.piece1 (F := Ideal)) Vr

set_option maxHeartbeats 4000000 in
/-- If the two programs' buffers agree where the stretch reads them, they agree after it on every buffer a later
    operation still reads. -/
theorem agree1 (Vk : Valuation Cert.KernelIdeal.τ Cert.KernelIdeal.sig (Elt Ideal)) (Vr : Valuation Cert.ReferenceIdeal.τ Cert.ReferenceIdeal.sig (Elt Ideal))
    (hdot : Vk (Proc.devRef .tc Cert.KernelIdeal.main_v30) = Host.dotGeneral (F := Ideal) (φ₁ := .f32) (φ₂ := .f32) Cert.ReferenceIdeal.dot_S100000x128_S128x64_S100000x64_1_0_0_1_n_n none (Vr (Proc.devRef .tc Cert.ReferenceIdeal.main_arg0)) (Vr (Proc.devRef .tc Cert.ReferenceIdeal.main_arg3)))
    (h_main_v3 : Vk (Proc.devRef .tc Cert.KernelIdeal.main_v3) = Vr (Proc.devRef .tc Cert.ReferenceIdeal.main_v3))
    (h_main_v6 : Vk (Proc.devRef .tc Cert.KernelIdeal.main_v6) = Vr (Proc.devRef .tc Cert.ReferenceIdeal.main_v6))
    (h_main_v29 : Vk (Proc.devRef .tc Cert.KernelIdeal.main_v29) = Vr (Proc.devRef .tc Cert.ReferenceIdeal.main_v29))
    (h_main_arg4 : Vk (Proc.devRef .tc Cert.KernelIdeal.main_arg4) = Vr (Proc.devRef .tc Cert.ReferenceIdeal.main_arg4))
    (h_main_arg2 : Vk (Proc.devRef .tc Cert.KernelIdeal.main_arg2) = Vr (Proc.devRef .tc Cert.ReferenceIdeal.main_arg2))
    (h_main_arg5 : Vk (Proc.devRef .tc Cert.KernelIdeal.main_arg5) = Vr (Proc.devRef .tc Cert.ReferenceIdeal.main_arg5))
    (h_main_arg6 : Vk (Proc.devRef .tc Cert.KernelIdeal.main_arg6) = Vr (Proc.devRef .tc Cert.ReferenceIdeal.main_arg6))
    (h_main_arg7 : Vk (Proc.devRef .tc Cert.KernelIdeal.main_arg7) = Vr (Proc.devRef .tc Cert.ReferenceIdeal.main_arg7))
    (h_main_arg8 : Vk (Proc.devRef .tc Cert.KernelIdeal.main_arg8) = Vr (Proc.devRef .tc Cert.ReferenceIdeal.main_arg8)) :
    kAfter1 Vk (Proc.devRef .tc Cert.KernelIdeal.main_v47) = rAfter1 Vr (Proc.devRef .tc Cert.ReferenceIdeal.main_v47)
      ∧ kAfter1 Vk (Proc.devRef .tc Cert.KernelIdeal.main_v49) = rAfter1 Vr (Proc.devRef .tc Cert.ReferenceIdeal.main_v49)
      ∧ kAfter1 Vk (Proc.devRef .tc Cert.KernelIdeal.main_v51) = rAfter1 Vr (Proc.devRef .tc Cert.ReferenceIdeal.main_v51)
      ∧ kAfter1 Vk (Proc.devRef .tc Cert.KernelIdeal.main_v3) = rAfter1 Vr (Proc.devRef .tc Cert.ReferenceIdeal.main_v3)
      ∧ kAfter1 Vk (Proc.devRef .tc Cert.KernelIdeal.main_v6) = rAfter1 Vr (Proc.devRef .tc Cert.ReferenceIdeal.main_v6)
      ∧ kAfter1 Vk (Proc.devRef .tc Cert.KernelIdeal.main_v29) = rAfter1 Vr (Proc.devRef .tc Cert.ReferenceIdeal.main_v29)
      ∧ kAfter1 Vk (Proc.devRef .tc Cert.KernelIdeal.main_arg2) = rAfter1 Vr (Proc.devRef .tc Cert.ReferenceIdeal.main_arg2)
      ∧ kAfter1 Vk (Proc.devRef .tc Cert.KernelIdeal.main_arg5) = rAfter1 Vr (Proc.devRef .tc Cert.ReferenceIdeal.main_arg5)
      ∧ kAfter1 Vk (Proc.devRef .tc Cert.KernelIdeal.main_arg6) = rAfter1 Vr (Proc.devRef .tc Cert.ReferenceIdeal.main_arg6)
      ∧ kAfter1 Vk (Proc.devRef .tc Cert.KernelIdeal.main_arg7) = rAfter1 Vr (Proc.devRef .tc Cert.ReferenceIdeal.main_arg7)
      ∧ kAfter1 Vk (Proc.devRef .tc Cert.KernelIdeal.main_arg8) = rAfter1 Vr (Proc.devRef .tc Cert.ReferenceIdeal.main_arg8) := by
  refine ⟨?_, ?_, ?_, ?_, ?_, ?_, ?_, ?_, ?_, ?_, ?_⟩ <;>
    (simp only [kAfter1, rAfter1, Cert.ReferenceIdeal.Pieces.piece1, Cert.ReferenceIdeal.Pieces.rest0, Cert.ReferenceIdeal.ValueP.ops, List.drop_succ_cons, List.drop_zero, List.take_succ_cons, List.take_zero]
     after_results_simp
     simp only [hdot, h_main_v3, h_main_v6, h_main_v29, h_main_arg4, h_main_arg2, h_main_arg5, h_main_arg6, h_main_arg7, h_main_arg8]
     try rfl)

end Cert.Stretches

end
-- ==== Proof.Stretch2.lean ====
/-
  The third stretch of host operations computes the same values in both programs.

  The kernel program enters the stretch with the second dense kernel's output array; the reference's piece begins
  with the whole matrix product h · Wh[0].  If that array is the product of the reference's operands, both programs
  gather, scale by the edge weights, scatter-add, add the layer's bias and clamp at zero, and slice the next layer's
  weights and bias: the next layer's input, weights and bias agree, and so does every value carried along.
-/
import proofs.«172271_j20693152432416_1_alg».proof.Proof.Gen.KernelIdeal.Launch
import proofs.«172271_j20693152432416_1_alg».proof.Proof.RefPieces
import Idealize.ShloMosaic.PureOps.Ideal.Laws

set_option maxRecDepth 16384

noncomputable section

namespace Cert.Stretches

open Idealize.ShloMosaic Idealize.ShloMosaic.StableHlo

/-- The kernel program's buffer contents after its third stretch, from contents `Vk`. -/
abbrev kAfter2 (Vk : Valuation Cert.KernelIdeal.τ Cert.KernelIdeal.sig (Elt Ideal)) : Valuation Cert.KernelIdeal.τ Cert.KernelIdeal.sig (Elt Ideal) :=
  after (Cert.KernelIdeal.Gen.hostOps2_2 (F := Ideal)) (after Cert.KernelIdeal.Gen.hostOps2_1 (after Cert.KernelIdeal.Gen.hostOps2 Vk))

/-- The reference's buffer contents after its third piece, from contents `Vr`. -/
abbrev rAfter2 (Vr : Valuation Cert.ReferenceIdeal.τ Cert.ReferenceIdeal.sig (Elt Ideal)) : Valuation Cert.ReferenceIdeal.τ Cert.ReferenceIdeal.sig (Elt Ideal) :=
  after (Cert.ReferenceIdeal.Pieces.piece2 (F := Ideal)) Vr

set_option maxHeartbeats 4000000 in
/-- If the two programs' buffers agree where the stretch reads them, they agree after it on every buffer a later
    operation still reads. -/
theorem agree2 (Vk : Valuation Cert.KernelIdeal.τ Cert.KernelIdeal.sig (Elt Ideal)) (Vr : Valuation Cert.ReferenceIdeal.τ Cert.ReferenceIdeal.sig (Elt Ideal))
    (hdot : Vk (Proc.devRef .tc Cert.KernelIdeal.main_v52) = Host.dotGeneral (F := Ideal) (φ₁ := .f32) (φ₂ := .f32) Cert.ReferenceIdeal.dot_S100000x64_S64x64_S100000x64_1_0_0_1_n_n none (Vr (Proc.devRef .tc Cert.ReferenceIdeal.main_v47)) (Vr (Proc.devRef .tc Cert.ReferenceIdeal.main_v49)))
    (h_main_v51 : Vk (Proc.devRef .tc Cert.KernelIdeal.main_v51) = Vr (Proc.devRef .tc Cert.ReferenceIdeal.main_v51))
    (h_main_v3 : Vk (Proc.devRef .tc Cert.KernelIdeal.main_v3) = Vr (Proc.devRef .tc Cert.ReferenceIdeal.main_v3))
    (h_main_v6 : Vk (Proc.devRef .tc Cert.KernelIdeal.main_v6) = Vr (Proc.devRef .tc Cert.ReferenceIdeal.main_v6))
    (h_main_v29 : Vk (Proc.devRef .tc Cert.KernelIdeal.main_v29) = Vr (Proc.devRef .tc Cert.ReferenceIdeal.main_v29))
    (h_main_arg2 : Vk (Proc.devRef .tc Cert.KernelIdeal.main_arg2) = Vr (Proc.devRef .tc Cert.ReferenceIdeal.main_arg2))
    (h_main_arg5 : Vk (Proc.devRef .tc Cert.KernelIdeal.main_arg5) = Vr (Proc.devRef .tc Cert.ReferenceIdeal.main_arg5))
    (h_main_arg6 : Vk (Proc.devRef .tc Cert.KernelIdeal.main_arg6) = Vr (Proc.devRef .tc Cert.ReferenceIdeal.main_arg6))
    (h_main_arg7 : Vk (Proc.devRef .tc Cert.KernelIdeal.main_arg7) = Vr (Proc.devRef .tc Cert.ReferenceIdeal.main_arg7))
    (h_main_arg8 : Vk (Proc.devRef .tc Cert.KernelIdeal.main_arg8) = Vr (Proc.devRef .tc Cert.ReferenceIdeal.main_arg8)) :
    kAfter2 Vk (Proc.devRef .tc Cert.KernelIdeal.main_v69) = rAfter2 Vr (Proc.devRef .tc Cert.ReferenceIdeal.main_v69)
      ∧ kAfter2 Vk (Proc.devRef .tc Cert.KernelIdeal.main_v71) = rAfter2 Vr (Proc.devRef .tc Cert.ReferenceIdeal.main_v71)
      ∧ kAfter2 Vk (Proc.devRef .tc Cert.KernelIdeal.main_v73) = rAfter2 Vr (Proc.devRef .tc Cert.ReferenceIdeal.main_v73)
      ∧ kAfter2 Vk (Proc.devRef .tc Cert.KernelIdeal.main_v3) = rAfter2 Vr (Proc.devRef .tc Cert.ReferenceIdeal.main_v3)
      ∧ kAfter2 Vk (Proc.devRef .tc Cert.KernelIdeal.main_v6) = rAfter2 Vr (Proc.devRef .tc Cert.ReferenceIdeal.main_v6)
      ∧ kAfter2 Vk (Proc.devRef .tc Cert.KernelIdeal.main_v29) = rAfter2 Vr (Proc.devRef .tc Cert.ReferenceIdeal.main_v29)
      ∧ kAfter2 Vk (Proc.devRef .tc Cert.KernelIdeal.main_arg2) = rAfter2 Vr (Proc.devRef .tc Cert.ReferenceIdeal.main_arg2)
      ∧ kAfter2 Vk (Proc.devRef .tc Cert.KernelIdeal.main_arg5) = rAfter2 Vr (Proc.devRef .tc Cert.ReferenceIdeal.main_arg5)
      ∧ kAfter2 Vk (Proc.devRef .tc Cert.KernelIdeal.main_arg6) = rAfter2 Vr (Proc.devRef .tc Cert.ReferenceIdeal.main_arg6)
      ∧ kAfter2 Vk (Proc.devRef .tc Cert.KernelIdeal.main_arg7) = rAfter2 Vr (Proc.devRef .tc Cert.ReferenceIdeal.main_arg7)
      ∧ kAfter2 Vk (Proc.devRef .tc Cert.KernelIdeal.main_arg8) = rAfter2 Vr (Proc.devRef .tc Cert.ReferenceIdeal.main_arg8) := by
  refine ⟨?_, ?_, ?_, ?_, ?_, ?_, ?_, ?_, ?_, ?_, ?_⟩ <;>
    (simp only [kAfter2, rAfter2, Cert.ReferenceIdeal.Pieces.piece2, Cert.ReferenceIdeal.Pieces.rest1, Cert.ReferenceIdeal.Pieces.rest0, Cert.ReferenceIdeal.ValueP.ops, List.drop_succ_cons, List.drop_zero, List.take_succ_cons, List.take_zero]
     after_results_simp
     simp only [hdot, h_main_v51, h_main_v3, h_main_v6, h_main_v29, h_main_arg2, h_main_arg5, h_main_arg6, h_main_arg7, h_main_arg8]
     try rfl)

end Cert.Stretches

end
-- ==== Proof.Stretch3.lean ====
/-
  The fourth stretch of host operations computes the same values in both programs.

  The kernel program enters the stretch with the third dense kernel's output array; the reference's piece begins
  with the whole matrix product h · Wh[1].  If that array is the product of the reference's operands, both programs
  gather, scale by the edge weights, scatter-add, add the layer's bias and clamp at zero, and slice the next layer's
  weights and bias: the next layer's input, weights and bias agree, and so does every value carried along.
-/
import proofs.«172271_j20693152432416_1_alg».proof.Proof.Gen.KernelIdeal.Launch
import proofs.«172271_j20693152432416_1_alg».proof.Proof.RefPieces
import Idealize.ShloMosaic.PureOps.Ideal.Laws

set_option maxRecDepth 16384

noncomputable section

namespace Cert.Stretches

open Idealize.ShloMosaic Idealize.ShloMosaic.StableHlo

/-- The kernel program's buffer contents after its fourth stretch, from contents `Vk`. -/
abbrev kAfter3 (Vk : Valuation Cert.KernelIdeal.τ Cert.KernelIdeal.sig (Elt Ideal)) : Valuation Cert.KernelIdeal.τ Cert.KernelIdeal.sig (Elt Ideal) :=
  after (Cert.KernelIdeal.Gen.hostOps3_2 (F := Ideal)) (after Cert.KernelIdeal.Gen.hostOps3_1 (after Cert.KernelIdeal.Gen.hostOps3 Vk))

/-- The reference's buffer contents after its fourth piece, from contents `Vr`. -/
abbrev rAfter3 (Vr : Valuation Cert.ReferenceIdeal.τ Cert.ReferenceIdeal.sig (Elt Ideal)) : Valuation Cert.ReferenceIdeal.τ Cert.ReferenceIdeal.sig (Elt Ideal) :=
  after (Cert.ReferenceIdeal.Pieces.piece3 (F := Ideal)) Vr

set_option maxHeartbeats 4000000 in
/-- If the two programs' buffers agree where the stretch reads them, they agree after it on every buffer a later
    operation still reads. -/
theorem agree3 (Vk : Valuation Cert.KernelIdeal.τ Cert.KernelIdeal.sig (Elt Ideal)) (Vr : Valuation Cert.ReferenceIdeal.τ Cert.ReferenceIdeal.sig (Elt Ideal))
    (hdot : Vk (Proc.devRef .tc Cert.KernelIdeal.main_v74) = Host.dotGeneral (F := Ideal) (φ₁ := .f32) (φ₂ := .f32) Cert.ReferenceIdeal.dot_S100000x64_S64x64_S100000x64_1_0_0_1_n_n none (Vr (Proc.devRef .tc Cert.ReferenceIdeal.main_v69)) (Vr (Proc.devRef .tc Cert.ReferenceIdeal.main_v71)))
    (h_main_v73 : Vk (Proc.devRef .tc Cert.KernelIdeal.main_v73) = Vr (Proc.devRef .tc Cert.ReferenceIdeal.main_v73))
    (h_main_v3 : Vk (Proc.devRef .tc Cert.KernelIdeal.main_v3) = Vr (Proc.devRef .tc Cert.ReferenceIdeal.main_v3))
    (h_main_v6 : Vk (Proc.devRef .tc Cert.KernelIdeal.main_v6) = Vr (Proc.devRef .tc Cert.ReferenceIdeal.main_v6))
    (h_main_v29 : Vk (Proc.devRef .tc Cert.KernelIdeal.main_v29) = Vr (Proc.devRef .tc Cert.ReferenceIdeal.main_v29))
    (h_main_arg2 : Vk (Proc.devRef .tc Cert.KernelIdeal.main_arg2) = Vr (Proc.devRef .tc Cert.ReferenceIdeal.main_arg2))
    (h_main_arg5 : Vk (Proc.devRef .tc Cert.KernelIdeal.main_arg5) = Vr (Proc.devRef .tc Cert.ReferenceIdeal.main_arg5))
    (h_main_arg6 : Vk (Proc.devRef .tc Cert.KernelIdeal.main_arg6) = Vr (Proc.devRef .tc Cert.ReferenceIdeal.main_arg6))
    (h_main_arg7 : Vk (Proc.devRef .tc Cert.KernelIdeal.main_arg7) = Vr (Proc.devRef .tc Cert.ReferenceIdeal.main_arg7))
    (h_main_arg8 : Vk (Proc.devRef .tc Cert.KernelIdeal.main_arg8) = Vr (Proc.devRef .tc Cert.ReferenceIdeal.main_arg8)) :
    kAfter3 Vk (Proc.devRef .tc Cert.KernelIdeal.main_v91) = rAfter3 Vr (Proc.devRef .tc Cert.ReferenceIdeal.main_v91)
      ∧ kAfter3 Vk (Proc.devRef .tc Cert.KernelIdeal.main_v93) = rAfter3 Vr (Proc.devRef .tc Cert.ReferenceIdeal.main_v93)
      ∧ kAfter3 Vk (Proc.devRef .tc Cert.KernelIdeal.main_v95) = rAfter3 Vr (Proc.devRef .tc Cert.ReferenceIdeal.main_v95)
      ∧ kAfter3 Vk (Proc.devRef .tc Cert.KernelIdeal.main_v3) = rAfter3 Vr (Proc.devRef .tc Cert.ReferenceIdeal.main_v3)
      ∧ kAfter3 Vk (Proc.devRef .tc Cert.KernelIdeal.main_v6) = rAfter3 Vr (Proc.devRef .tc Cert.ReferenceIdeal.main_v6)
      ∧ kAfter3 Vk (Proc.devRef .tc Cert.KernelIdeal.main_v29) = rAfter3 Vr (Proc.devRef .tc Cert.ReferenceIdeal.main_v29)
      ∧ kAfter3 Vk (Proc.devRef .tc Cert.KernelIdeal.main_arg2) = rAfter3 Vr (Proc.devRef .tc Cert.ReferenceIdeal.main_arg2)
      ∧ kAfter3 Vk (Proc.devRef .tc Cert.KernelIdeal.main_arg5) = rAfter3 Vr (Proc.devRef .tc Cert.ReferenceIdeal.main_arg5)
      ∧ kAfter3 Vk (Proc.devRef .tc Cert.KernelIdeal.main_arg6) = rAfter3 Vr (Proc.devRef .tc Cert.ReferenceIdeal.main_arg6)
      ∧ kAfter3 Vk (Proc.devRef .tc Cert.KernelIdeal.main_arg7) = rAfter3 Vr (Proc.devRef .tc Cert.ReferenceIdeal.main_arg7)
      ∧ kAfter3 Vk (Proc.devRef .tc Cert.KernelIdeal.main_arg8) = rAfter3 Vr (Proc.devRef .tc Cert.ReferenceIdeal.main_arg8) := by
  refine ⟨?_, ?_, ?_, ?_, ?_, ?_, ?_, ?_, ?_, ?_, ?_⟩ <;>
    (simp only [kAfter3, rAfter3, Cert.ReferenceIdeal.Pieces.piece3, Cert.ReferenceIdeal.Pieces.rest2, Cert.ReferenceIdeal.Pieces.rest1, Cert.ReferenceIdeal.Pieces.rest0, Cert.ReferenceIdeal.ValueP.ops, List.drop_succ_cons, List.drop_zero, List.take_succ_cons, List.take_zero]
     after_results_simp
     simp only [hdot, h_main_v73, h_main_v3, h_main_v6, h_main_v29, h_main_arg2, h_main_arg5, h_main_arg6, h_main_arg7, h_main_arg8]
     try rfl)

end Cert.Stretches

end
-- ==== Proof.Stretch4.lean ====
/-
  The fifth stretch of host operations computes the same values in both programs.

  The kernel program enters the stretch with the fourth dense kernel's output array; the reference's piece begins
  with the whole matrix product h · Wh[2].  If that array is the product of the reference's operands, both programs
  gather, scale by the edge weights, scatter-add, add the layer's bias and clamp at zero, and slice the last layer's
  weights and bias: the last layer's input, weights and bias agree, and so does every value carried along.
-/
import proofs.«172271_j20693152432416_1_alg».proof.Proof.Gen.KernelIdeal.Launch
import proofs.«172271_j20693152432416_1_alg».proof.Proof.RefPieces
import Idealize.ShloMosaic.PureOps.Ideal.Laws

set_option maxRecDepth 16384

noncomputable section

namespace Cert.Stretches

open Idealize.ShloMosaic Idealize.ShloMosaic.StableHlo

/-- The kernel program's buffer contents after its fifth stretch, from contents `Vk`. -/
abbrev kAfter4 (Vk : Valuation Cert.KernelIdeal.τ Cert.KernelIdeal.sig (Elt Ideal)) : Valuation Cert.KernelIdeal.τ Cert.KernelIdeal.sig (Elt Ideal) :=
  after (Cert.KernelIdeal.Gen.hostOps4_2 (F := Ideal)) (after Cert.KernelIdeal.Gen.hostOps4_1 (after Cert.KernelIdeal.Gen.hostOps4 Vk))

/-- The reference's buffer contents after its fifth piece, from contents `Vr`. -/
abbrev rAfter4 (Vr : Valuation Cert.ReferenceIdeal.τ Cert.ReferenceIdeal.sig (Elt Ideal)) : Valuation Cert.ReferenceIdeal.τ Cert.ReferenceIdeal.sig (Elt Ideal) :=
  after (Cert.ReferenceIdeal.Pieces.piece4 (F := Ideal)) Vr

set_option maxHeartbeats 4000000 in
/-- If the two programs' buffers agree where the stretch reads them, they agree after it on every buffer a later
    operation still reads. -/
theorem agree4 (Vk : Valuation Cert.KernelIdeal.τ Cert.KernelIdeal.sig (Elt Ideal)) (Vr : Valuation Cert.ReferenceIdeal.τ Cert.ReferenceIdeal.sig (Elt Ideal))
    (hdot : Vk (Proc.devRef .tc Cert.KernelIdeal.main_v96) = Host.dotGeneral (F := Ideal) (φ₁ := .f32) (φ₂ := .f32) Cert.ReferenceIdeal.dot_S100000x64_S64x64_S100000x64_1_0_0_1_n_n none (Vr (Proc.devRef .tc Cert.ReferenceIdeal.main_v91)) (Vr (Proc.devRef .tc Cert.ReferenceIdeal.main_v93)))
    (h_main_v95 : Vk (Proc.devRef .tc Cert.KernelIdeal.main_v95) = Vr (Proc.devRef .tc Cert.ReferenceIdeal.main_v95))
    (h_main_v3 : Vk (Proc.devRef .tc Cert.KernelIdeal.main_v3) = Vr (Proc.devRef .tc Cert.ReferenceIdeal.main_v3))
    (h_main_v6 : Vk (Proc.devRef .tc Cert.KernelIdeal.main_v6) = Vr (Proc.devRef .tc Cert.ReferenceIdeal.main_v6))
    (h_main_v29 : Vk (Proc.devRef .tc Cert.KernelIdeal.main_v29) = Vr (Proc.devRef .tc Cert.ReferenceIdeal.main_v29))
    (h_main_arg2 : Vk (Proc.devRef .tc Cert.KernelIdeal.main_arg2) = Vr (Proc.devRef .tc Cert.ReferenceIdeal.main_arg2))
    (h_main_arg5 : Vk (Proc.devRef .tc Cert.KernelIdeal.main_arg5) = Vr (Proc.devRef .tc Cert.ReferenceIdeal.main_arg5))
    (h_main_arg6 : Vk (Proc.devRef .tc Cert.KernelIdeal.main_arg6) = Vr (Proc.devRef .tc Cert.ReferenceIdeal.main_arg6))
    (h_main_arg7 : Vk (Proc.devRef .tc Cert.KernelIdeal.main_arg7) = Vr (Proc.devRef .tc Cert.ReferenceIdeal.main_arg7))
    (h_main_arg8 : Vk (Proc.devRef .tc Cert.KernelIdeal.main_arg8) = Vr (Proc.devRef .tc Cert.ReferenceIdeal.main_arg8)) :
    kAfter4 Vk (Proc.devRef .tc Cert.KernelIdeal.main_v113) = rAfter4 Vr (Proc.devRef .tc Cert.ReferenceIdeal.main_v113)
      ∧ kAfter4 Vk (Proc.devRef .tc Cert.KernelIdeal.main_v115) = rAfter4 Vr (Proc.devRef .tc Cert.ReferenceIdeal.main_v115)
      ∧ kAfter4 Vk (Proc.devRef .tc Cert.KernelIdeal.main_v117) = rAfter4 Vr (Proc.devRef .tc Cert.ReferenceIdeal.main_v117)
      ∧ kAfter4 Vk (Proc.devRef .tc Cert.KernelIdeal.main_v3) = rAfter4 Vr (Proc.devRef .tc Cert.ReferenceIdeal.main_v3)
      ∧ kAfter4 Vk (Proc.devRef .tc Cert.KernelIdeal.main_v6) = rAfter4 Vr (Proc.devRef .tc Cert.ReferenceIdeal.main_v6)
      ∧ kAfter4 Vk (Proc.devRef .tc Cert.KernelIdeal.main_v29) = rAfter4 Vr (Proc.devRef .tc Cert.ReferenceIdeal.main_v29)
      ∧ kAfter4 Vk (Proc.devRef .tc Cert.KernelIdeal.main_arg2) = rAfter4 Vr (Proc.devRef .tc Cert.ReferenceIdeal.main_arg2)
      ∧ kAfter4 Vk (Proc.devRef .tc Cert.KernelIdeal.main_arg7) = rAfter4 Vr (Proc.devRef .tc Cert.ReferenceIdeal.main_arg7)
      ∧ kAfter4 Vk (Proc.devRef .tc Cert.KernelIdeal.main_arg8) = rAfter4 Vr (Proc.devRef .tc Cert.ReferenceIdeal.main_arg8) := by
  refine ⟨?_, ?_, ?_, ?_, ?_, ?_, ?_, ?_, ?_⟩ <;>
    (simp only [kAfter4, rAfter4, Cert.ReferenceIdeal.Pieces.piece4, Cert.ReferenceIdeal.Pieces.rest3, Cert.ReferenceIdeal.Pieces.rest2, Cert.ReferenceIdeal.Pieces.rest1, Cert.ReferenceIdeal.Pieces.rest0, Cert.ReferenceIdeal.ValueP.ops, List.drop_succ_cons, List.drop_zero, List.take_succ_cons, List.take_zero]
     after_results_simp
     simp only [hdot, h_main_v95, h_main_v3, h_main_v6, h_main_v29, h_main_arg2, h_main_arg5, h_main_arg6, h_main_arg7, h_main_arg8]
     try rfl)

end Cert.Stretches

end
-- ==== Proof.Stretch5.lean ====
/-
  The sixth stretch of host operations computes the same values in both programs.

  The kernel program enters the stretch with the fifth dense kernel's output array; the reference's last piece begins
  with the whole matrix product h · Wh[3].  If that array is the product of the reference's operands, both programs
  finish the last layer (gather, scale, scatter-add, bias, clamp at zero), average the node features over each graph
  (a scatter-add of the features and of ones by graph number, the count clamped below at one), normalise each graph's
  64 features by their mean and variance, and apply the output weights and bias: the result buffers agree.
-/
import proofs.«172271_j20693152432416_1_alg».proof.Proof.Gen.KernelIdeal.Launch
import proofs.«172271_j20693152432416_1_alg».proof.Proof.RefPieces
import Idealize.ShloMosaic.PureOps.Ideal.Laws

set_option maxRecDepth 16384

noncomputable section

namespace Cert.Stretches

open Idealize.ShloMosaic Idealize.ShloMosaic.StableHlo

/-- The kernel program's buffer contents after its sixth stretch, from contents `Vk`. -/
abbrev kAfter5 (Vk : Valuation Cert.KernelIdeal.τ Cert.KernelIdeal.sig (Elt Ideal)) : Valuation Cert.KernelIdeal.τ Cert.KernelIdeal.sig (Elt Ideal) :=
  after (Cert.KernelIdeal.Gen.hostOps5_2 (F := Ideal)) (after Cert.KernelIdeal.Gen.hostOps5_1 (after Cert.KernelIdeal.Gen.hostOps5 Vk))

/-- The reference's buffer contents after its sixth piece, from contents `Vr`. -/
abbrev rAfter5 (Vr : Valuation Cert.ReferenceIdeal.τ Cert.ReferenceIdeal.sig (Elt Ideal)) : Valuation Cert.ReferenceIdeal.τ Cert.ReferenceIdeal.sig (Elt Ideal) :=
  after (Cert.ReferenceIdeal.Pieces.rest4 (F := Ideal)) Vr

set_option maxHeartbeats 4000000 in
/-- If the two programs' buffers agree where the stretch reads them, they agree after it on every buffer a later
    operation still reads. -/
theorem agree5 (Vk : Valuation Cert.KernelIdeal.τ Cert.KernelIdeal.sig (Elt Ideal)) (Vr : Valuation Cert.ReferenceIdeal.τ Cert.ReferenceIdeal.sig (Elt Ideal))
    (hdot : Vk (Proc.devRef .tc Cert.KernelIdeal.main_v118) = Host.dotGeneral (F := Ideal) (φ₁ := .f32) (φ₂ := .f32) Cert.ReferenceIdeal.dot_S100000x64_S64x64_S100000x64_1_0_0_1_n_n none (Vr (Proc.devRef .tc Cert.ReferenceIdeal.main_v113)) (Vr (Proc.devRef .tc Cert.ReferenceIdeal.main_v115)))
    (h_main_v117 : Vk (Proc.devRef .tc Cert.KernelIdeal.main_v117) = Vr (Proc.devRef .tc Cert.ReferenceIdeal.main_v117))
    (h_main_v3 : Vk (Proc.devRef .tc Cert.KernelIdeal.main_v3) = Vr (Proc.devRef .tc Cert.ReferenceIdeal.main_v3))
    (h_main_v6 : Vk (Proc.devRef .tc Cert.KernelIdeal.main_v6) = Vr (Proc.devRef .tc Cert.ReferenceIdeal.main_v6))
    (h_main_v29 : Vk (Proc.devRef .tc Cert.KernelIdeal.main_v29) = Vr (Proc.devRef .tc Cert.ReferenceIdeal.main_v29))
    (h_main_arg2 : Vk (Proc.devRef .tc Cert.KernelIdeal.main_arg2) = Vr (Proc.devRef .tc Cert.ReferenceIdeal.main_arg2))
    (h_main_arg7 : Vk (Proc.devRef .tc Cert.KernelIdeal.main_arg7) = Vr (Proc.devRef .tc Cert.ReferenceIdeal.main_arg7))
    (h_main_arg8 : Vk (Proc.devRef .tc Cert.KernelIdeal.main_arg8) = Vr (Proc.devRef .tc Cert.ReferenceIdeal.main_arg8)) :
    kAfter5 Vk (Proc.devRef .tc Cert.KernelIdeal.main_v169) = rAfter5 Vr (Proc.devRef .tc Cert.ReferenceIdeal.main_v169) := by
  simp only [kAfter5, rAfter5, Cert.ReferenceIdeal.Pieces.rest4, Cert.ReferenceIdeal.Pieces.rest3, Cert.ReferenceIdeal.Pieces.rest2, Cert.ReferenceIdeal.Pieces.rest1, Cert.ReferenceIdeal.Pieces.rest0, Cert.ReferenceIdeal.ValueP.ops, List.drop_succ_cons, List.drop_zero, List.take_succ_cons, List.take_zero]
  after_results_simp
  simp only [hdot, h_main_v117, h_main_v3, h_main_v6, h_main_v29, h_main_arg2, h_main_arg7, h_main_arg8]
  try rfl

end Cert.Stretches

end
-- ==== Proof.Bridge.lean ====
/-
  The two programs' results are equal.

  The kernel program's buffer contents are followed from the launch through six stretches of host operations and five
  dense kernels; the reference's through the six pieces of its line.  At every boundary the buffers a later operation
  still reads hold the same values in both programs: a stretch preserves this because its operations are the same in
  both programs, and a dense kernel preserves it because the array it leaves is the whole matrix product of its two
  operand arrays, which is what the reference computes in one operation at that place, and it leaves every other
  buffer alone.  Nothing is assumed finite: each side computes the same sums of the same products.
-/
import proofs.«172271_j20693152432416_1_alg».proof.Proof.Gen.KernelIdeal.Frame
import proofs.«172271_j20693152432416_1_alg».proof.Proof.Region0
import proofs.«172271_j20693152432416_1_alg».proof.Proof.Region1
import proofs.«172271_j20693152432416_1_alg».proof.Proof.Region2
import proofs.«172271_j20693152432416_1_alg».proof.Proof.Region3
import proofs.«172271_j20693152432416_1_alg».proof.Proof.Region4
import proofs.«172271_j20693152432416_1_alg».proof.Proof.Stretch0
import proofs.«172271_j20693152432416_1_alg».proof.Proof.Stretch1
import proofs.«172271_j20693152432416_1_alg».proof.Proof.Stretch2
import proofs.«172271_j20693152432416_1_alg».proof.Proof.Stretch3
import proofs.«172271_j20693152432416_1_alg».proof.Proof.Stretch4
import proofs.«172271_j20693152432416_1_alg».proof.Proof.Stretch5
import proofs.«172271_j20693152432416_1_alg».proof.Proof.RefPieces

set_option maxRecDepth 16384

noncomputable section

namespace Cert.Bridge

open Idealize.ShloMosaic Idealize.ShloMosaic.StableHlo Idealize.ShloMosaic.TcCoe Cert.KernelIdeal.Gen

/-- The whole product with contraction length 128 depends only on its two operands, whichever of the two programs'
    records of the product's dimensions names it. -/
theorem dot128_congr {x x' : FVec Ideal Cert.KernelIdeal.S100000x128 .f32} {w w' : FVec Ideal Cert.KernelIdeal.S128x64 .f32} (hx : x = x') (hw : w = w') :
    Host.dotGeneral (F := Ideal) (DotDims.plain 100000 128 64) none x w = Host.dotGeneral (F := Ideal) Cert.ReferenceIdeal.dot_S100000x128_S128x64_S100000x64_1_0_0_1_n_n none x' w' := by
  subst hx; subst hw; rfl

/-- The same for the products with contraction length 64. -/
theorem dot64_congr {x x' : FVec Ideal Cert.KernelIdeal.S100000x64 .f32} {w w' : FVec Ideal Cert.KernelIdeal.S64x64 .f32} (hx : x = x') (hw : w = w') :
    Host.dotGeneral (F := Ideal) (DotDims.plain 100000 64 64) none x w = Host.dotGeneral (F := Ideal) Cert.ReferenceIdeal.dot_S100000x64_S64x64_S100000x64_1_0_0_1_n_n none x' w' := by
  subst hx; subst hw; rfl

variable (m : (ℓ : Loc Cert.KernelIdeal.nD Cert.KernelIdeal.τ Cert.KernelIdeal.sig) → Buf (Elt Ideal) ℓ) (ρ : Dev Cert.KernelIdeal.nD → PrngReg)

/-- After the first dense kernel its output array holds the whole product of the reference's two operands, when the
    kernel's two operand arrays hold what the reference's operands hold. -/
theorem region0 (c : Dev Cert.KernelIdeal.nD) (Vr : Valuation Cert.ReferenceIdeal.τ Cert.ReferenceIdeal.sig (Elt Ideal))
    (ha : W3 m ρ c (Proc.devRef .tc Cert.KernelIdeal.main_arg0) = Vr (Proc.devRef .tc Cert.ReferenceIdeal.main_arg0)) (hb : W3 m ρ c (Proc.devRef .tc Cert.KernelIdeal.main_arg3) = Vr (Proc.devRef .tc Cert.ReferenceIdeal.main_arg3)) :
    W4 m ρ c (Proc.devRef .tc Cert.KernelIdeal.main_v30)
      = Host.dotGeneral (F := Ideal) (φ₁ := .f32) (φ₂ := .f32) Cert.ReferenceIdeal.dot_S100000x128_S128x64_S100000x64_1_0_0_1_n_n none (Vr (Proc.devRef .tc Cert.ReferenceIdeal.main_arg0)) (Vr (Proc.devRef .tc Cert.ReferenceIdeal.main_arg3)) := by
  have h1 : W4 m ρ c (Proc.devRef .tc Cert.KernelIdeal.main_v30) = Cert.KernelIdeal.Dense.prod0 (V3 m ρ) c :=
    (W4_arr m ρ c 2).trans (Cert.KernelIdeal.Dense.final0 (V3 m ρ) c)
  rw [h1]
  exact dot128_congr ha hb

/-- After the second dense kernel its output array holds the whole product of the reference's two operands, when the
    kernel's two operand arrays hold what the reference's operands hold. -/
theorem region1 (c : Dev Cert.KernelIdeal.nD) (Vr : Valuation Cert.ReferenceIdeal.τ Cert.ReferenceIdeal.sig (Elt Ideal))
    (ha : W7 m ρ c (Proc.devRef .tc Cert.KernelIdeal.main_v47) = Vr (Proc.devRef .tc Cert.ReferenceIdeal.main_v47)) (hb : W7 m ρ c (Proc.devRef .tc Cert.KernelIdeal.main_v49) = Vr (Proc.devRef .tc Cert.ReferenceIdeal.main_v49)) :
    W8 m ρ c (Proc.devRef .tc Cert.KernelIdeal.main_v52)
      = Host.dotGeneral (F := Ideal) (φ₁ := .f32) (φ₂ := .f32) Cert.ReferenceIdeal.dot_S100000x64_S64x64_S100000x64_1_0_0_1_n_n none (Vr (Proc.devRef .tc Cert.ReferenceIdeal.main_v47)) (Vr (Proc.devRef .tc Cert.ReferenceIdeal.main_v49)) := by
  have h1 : W8 m ρ c (Proc.devRef .tc Cert.KernelIdeal.main_v52) = Cert.KernelIdeal.Dense.prod1 (V7 m ρ) c :=
    (W8_arr m ρ c 2).trans (Cert.KernelIdeal.Dense.final1 (V7 m ρ) c)
  rw [h1]
  exact dot64_congr ha hb

/-- After the third dense kernel its output array holds the whole product of the reference's two operands, when the
    kernel's two operand arrays hold what the reference's operands hold. -/
theorem region2 (c : Dev Cert.KernelIdeal.nD) (Vr : Valuation Cert.ReferenceIdeal.τ Cert.ReferenceIdeal.sig (Elt Ideal))
    (ha : W11 m ρ c (Proc.devRef .tc Cert.KernelIdeal.main_v69) = Vr (Proc.devRef .tc Cert.ReferenceIdeal.main_v69)) (hb : W11 m ρ c (Proc.devRef .tc Cert.KernelIdeal.main_v71) = Vr (Proc.devRef .tc Cert.ReferenceIdeal.main_v71)) :
    W12 m ρ c (Proc.devRef .tc Cert.KernelIdeal.main_v74)
      = Host.dotGeneral (F := Ideal) (φ₁ := .f32) (φ₂ := .f32) Cert.ReferenceIdeal.dot_S100000x64_S64x64_S100000x64_1_0_0_1_n_n none (Vr (Proc.devRef .tc Cert.ReferenceIdeal.main_v69)) (Vr (Proc.devRef .tc Cert.ReferenceIdeal.main_v71)) := by
  have h1 : W12 m ρ c (Proc.devRef .tc Cert.KernelIdeal.main_v74) = Cert.KernelIdeal.Dense.prod2 (V11 m ρ) c :=
    (W12_arr m ρ c 2).trans (Cert.KernelIdeal.Dense.final2 (V11 m ρ) c)
  rw [h1]
  exact dot64_congr ha hb

/-- After the fourth dense kernel its output array holds the whole product of the reference's two operands, when the
    kernel's two operand arrays hold what the reference's operands hold. -/
theorem region3 (c : Dev Cert.KernelIdeal.nD) (Vr : Valuation Cert.ReferenceIdeal.τ Cert.ReferenceIdeal.sig (Elt Ideal))
    (ha : W15 m ρ c (Proc.devRef .tc Cert.KernelIdeal.main_v91) = Vr (Proc.devRef .tc Cert.ReferenceIdeal.main_v91)) (hb : W15 m ρ c (Proc.devRef .tc Cert.KernelIdeal.main_v93) = Vr (Proc.devRef .tc Cert.ReferenceIdeal.main_v93)) :
    W16 m ρ c (Proc.devRef .tc Cert.KernelIdeal.main_v96)
      = Host.dotGeneral (F := Ideal) (φ₁ := .f32) (φ₂ := .f32) Cert.ReferenceIdeal.dot_S100000x64_S64x64_S100000x64_1_0_0_1_n_n none (Vr (Proc.devRef .tc Cert.ReferenceIdeal.main_v91)) (Vr (Proc.devRef .tc Cert.ReferenceIdeal.main_v93)) := by
  have h1 : W16 m ρ c (Proc.devRef .tc Cert.KernelIdeal.main_v96) = Cert.KernelIdeal.Dense.prod3 (V15 m ρ) c :=
    (W16_arr m ρ c 2).trans (Cert.KernelIdeal.Dense.final3 (V15 m ρ) c)
  rw [h1]
  exact dot64_congr ha hb

/-- After the fifth dense kernel its output array holds the whole product of the reference's two operands, when the
    kernel's two operand arrays hold what the reference's operands hold. -/
theorem region4 (c : Dev Cert.KernelIdeal.nD) (Vr : Valuation Cert.ReferenceIdeal.τ Cert.ReferenceIdeal.sig (Elt Ideal))
    (ha : W19 m ρ c (Proc.devRef .tc Cert.KernelIdeal.main_v113) = Vr (Proc.devRef .tc Cert.ReferenceIdeal.main_v113)) (hb : W19 m ρ c (Proc.devRef .tc Cert.KernelIdeal.main_v115) = Vr (Proc.devRef .tc Cert.ReferenceIdeal.main_v115)) :
    W20 m ρ c (Proc.devRef .tc Cert.KernelIdeal.main_v118)
      = Host.dotGeneral (F := Ideal) (φ₁ := .f32) (φ₂ := .f32) Cert.ReferenceIdeal.dot_S100000x64_S64x64_S100000x64_1_0_0_1_n_n none (Vr (Proc.devRef .tc Cert.ReferenceIdeal.main_v113)) (Vr (Proc.devRef .tc Cert.ReferenceIdeal.main_v115)) := by
  have h1 : W20 m ρ c (Proc.devRef .tc Cert.KernelIdeal.main_v118) = Cert.KernelIdeal.Dense.prod4 (V19 m ρ) c :=
    (W20_arr m ρ c 2).trans (Cert.KernelIdeal.Dense.final4 (V19 m ρ) c)
  rw [h1]
  exact dot64_congr ha hb

set_option maxHeartbeats 4000000 in
/-- From launch memories that agree on the nine arguments, the kernel program's result buffer after its last stretch
    holds what the reference's line of operations leaves in its result buffer. -/
theorem result_eq (m' : (ℓ : Loc Cert.ReferenceIdeal.nD Cert.ReferenceIdeal.τ Cert.ReferenceIdeal.sig) → Buf (Elt Ideal) ℓ) (c : Dev Cert.KernelIdeal.nD)
    (hargs : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    W23 m ρ c (Proc.devRef .tc Cert.KernelIdeal.main_v169) = after (Cert.ReferenceIdeal.ValueP.ops (F := Ideal)) (launchContents m' c) (Proc.devRef .tc Cert.ReferenceIdeal.main_v169) := by
  obtain ⟨a0, a1, a2, a3, a4, a5, a6, a7, a8⟩ := hargs
  obtain ⟨s0_main_arg0, s0_main_arg3, s0_main_v3, s0_main_v6, s0_main_v29, s0_main_arg2, s0_main_arg4, s0_main_arg5, s0_main_arg6, s0_main_arg7, s0_main_arg8⟩ :=
    Cert.Stretches.agree0 (W0 m ρ c) (launchContents m' c) a0.symm a1.symm a2.symm a3.symm a4.symm a5.symm a6.symm a7.symm a8.symm
  have d0 := region0 m ρ c (Cert.Stretches.rAfter0 (launchContents m' c)) s0_main_arg0 s0_main_arg3
  obtain ⟨s1_main_v47, s1_main_v49, s1_main_v51, s1_main_v3, s1_main_v6, s1_main_v29, s1_main_arg2, s1_main_arg5, s1_main_arg6, s1_main_arg7, s1_main_arg8⟩ :=
    Cert.Stretches.agree1 (W4 m ρ c) (Cert.Stretches.rAfter0 (launchContents m' c)) d0
      ((W4_of_ne m ρ c Cert.KernelIdeal.main_v3 (by decide)).trans s0_main_v3)
      ((W4_of_ne m ρ c Cert.KernelIdeal.main_v6 (by decide)).trans s0_main_v6)
      ((W4_of_ne m ρ c Cert.KernelIdeal.main_v29 (by decide)).trans s0_main_v29)
      ((W4_of_ne m ρ c Cert.KernelIdeal.main_arg4 (by decide)).trans s0_main_arg4)
      ((W4_of_ne m ρ c Cert.KernelIdeal.main_arg2 (by decide)).trans s0_main_arg2)
      ((W4_of_ne m ρ c Cert.KernelIdeal.main_arg5 (by decide)).trans s0_main_arg5)
      ((W4_of_ne m ρ c Cert.KernelIdeal.main_arg6 (by decide)).trans s0_main_arg6)
      ((W4_of_ne m ρ c Cert.KernelIdeal.main_arg7 (by decide)).trans s0_main_arg7)
      ((W4_of_ne m ρ c Cert.KernelIdeal.main_arg8 (by decide)).trans s0_main_arg8)
  have d1 := region1 m ρ c (Cert.Stretches.rAfter1 (Cert.Stretches.rAfter0 (launchContents m' c))) s1_main_v47 s1_main_v49
  obtain ⟨s2_main_v69, s2_main_v71, s2_main_v73, s2_main_v3, s2_main_v6, s2_main_v29, s2_main_arg2, s2_main_arg5, s2_main_arg6, s2_main_arg7, s2_main_arg8⟩ :=
    Cert.Stretches.agree2 (W8 m ρ c) (Cert.Stretches.rAfter1 (Cert.Stretches.rAfter0 (launchContents m' c))) d1
      ((W8_of_ne m ρ c Cert.KernelIdeal.main_v51 (by decide)).trans s1_main_v51)
      ((W8_of_ne m ρ c Cert.KernelIdeal.main_v3 (by decide)).trans s1_main_v3)
      ((W8_of_ne m ρ c Cert.KernelIdeal.main_v6 (by decide)).trans s1_main_v6)
      ((W8_of_ne m ρ c Cert.KernelIdeal.main_v29 (by decide)).trans s1_main_v29)
      ((W8_of_ne m ρ c Cert.KernelIdeal.main_arg2 (by decide)).trans s1_main_arg2)
      ((W8_of_ne m ρ c Cert.KernelIdeal.main_arg5 (by decide)).trans s1_main_arg5)
      ((W8_of_ne m ρ c Cert.KernelIdeal.main_arg6 (by decide)).trans s1_main_arg6)
      ((W8_of_ne m ρ c Cert.KernelIdeal.main_arg7 (by decide)).trans s1_main_arg7)
      ((W8_of_ne m ρ c Cert.KernelIdeal.main_arg8 (by decide)).trans s1_main_arg8)
  have d2 := region2 m ρ c (Cert.Stretches.rAfter2 (Cert.Stretches.rAfter1 (Cert.Stretches.rAfter0 (launchContents m' c)))) s2_main_v69 s2_main_v71
  obtain ⟨s3_main_v91, s3_main_v93, s3_main_v95, s3_main_v3, s3_main_v6, s3_main_v29, s3_main_arg2, s3_main_arg5, s3_main_arg6, s3_main_arg7, s3_main_arg8⟩ :=
    Cert.Stretches.agree3 (W12 m ρ c) (Cert.Stretches.rAfter2 (Cert.Stretches.rAfter1 (Cert.Stretches.rAfter0 (launchContents m' c)))) d2
      ((W12_of_ne m ρ c Cert.KernelIdeal.main_v73 (by decide)).trans s2_main_v73)
      ((W12_of_ne m ρ c Cert.KernelIdeal.main_v3 (by decide)).trans s2_main_v3)
      ((W12_of_ne m ρ c Cert.KernelIdeal.main_v6 (by decide)).trans s2_main_v6)
      ((W12_of_ne m ρ c Cert.KernelIdeal.main_v29 (by decide)).trans s2_main_v29)
      ((W12_of_ne m ρ c Cert.KernelIdeal.main_arg2 (by decide)).trans s2_main_arg2)
      ((W12_of_ne m ρ c Cert.KernelIdeal.main_arg5 (by decide)).trans s2_main_arg5)
      ((W12_of_ne m ρ c Cert.KernelIdeal.main_arg6 (by decide)).trans s2_main_arg6)
      ((W12_of_ne m ρ c Cert.KernelIdeal.main_arg7 (by decide)).trans s2_main_arg7)
      ((W12_of_ne m ρ c Cert.KernelIdeal.main_arg8 (by decide)).trans s2_main_arg8)
  have d3 := region3 m ρ c (Cert.Stretches.rAfter3 (Cert.Stretches.rAfter2 (Cert.Stretches.rAfter1 (Cert.Stretches.rAfter0 (launchContents m' c))))) s3_main_v91 s3_main_v93
  obtain ⟨s4_main_v113, s4_main_v115, s4_main_v117, s4_main_v3, s4_main_v6, s4_main_v29, s4_main_arg2, s4_main_arg7, s4_main_arg8⟩ :=
    Cert.Stretches.agree4 (W16 m ρ c) (Cert.Stretches.rAfter3 (Cert.Stretches.rAfter2 (Cert.Stretches.rAfter1 (Cert.Stretches.rAfter0 (launchContents m' c))))) d3
      ((W16_of_ne m ρ c Cert.KernelIdeal.main_v95 (by decide)).trans s3_main_v95)
      ((W16_of_ne m ρ c Cert.KernelIdeal.main_v3 (by decide)).trans s3_main_v3)
      ((W16_of_ne m ρ c Cert.KernelIdeal.main_v6 (by decide)).trans s3_main_v6)
      ((W16_of_ne m ρ c Cert.KernelIdeal.main_v29 (by decide)).trans s3_main_v29)
      ((W16_of_ne m ρ c Cert.KernelIdeal.main_arg2 (by decide)).trans s3_main_arg2)
      ((W16_of_ne m ρ c Cert.KernelIdeal.main_arg5 (by decide)).trans s3_main_arg5)
      ((W16_of_ne m ρ c Cert.KernelIdeal.main_arg6 (by decide)).trans s3_main_arg6)
      ((W16_of_ne m ρ c Cert.KernelIdeal.main_arg7 (by decide)).trans s3_main_arg7)
      ((W16_of_ne m ρ c Cert.KernelIdeal.main_arg8 (by decide)).trans s3_main_arg8)
  have d4 := region4 m ρ c (Cert.Stretches.rAfter4 (Cert.Stretches.rAfter3 (Cert.Stretches.rAfter2 (Cert.Stretches.rAfter1 (Cert.Stretches.rAfter0 (launchContents m' c)))))) s4_main_v113 s4_main_v115
  have s5_main_v169 :=
    Cert.Stretches.agree5 (W20 m ρ c) (Cert.Stretches.rAfter4 (Cert.Stretches.rAfter3 (Cert.Stretches.rAfter2 (Cert.Stretches.rAfter1 (Cert.Stretches.rAfter0 (launchContents m' c)))))) d4
      ((W20_of_ne m ρ c Cert.KernelIdeal.main_v117 (by decide)).trans s4_main_v117)
      ((W20_of_ne m ρ c Cert.KernelIdeal.main_v3 (by decide)).trans s4_main_v3)
      ((W20_of_ne m ρ c Cert.KernelIdeal.main_v6 (by decide)).trans s4_main_v6)
      ((W20_of_ne m ρ c Cert.KernelIdeal.main_v29 (by decide)).trans s4_main_v29)
      ((W20_of_ne m ρ c Cert.KernelIdeal.main_arg2 (by decide)).trans s4_main_arg2)
      ((W20_of_ne m ρ c Cert.KernelIdeal.main_arg7 (by decide)).trans s4_main_arg7)
      ((W20_of_ne m ρ c Cert.KernelIdeal.main_arg8 (by decide)).trans s4_main_arg8)
  exact s5_main_v169.trans (congrFun (Cert.ReferenceIdeal.Pieces.after_ops (launchContents m' c)).symm _)

end Cert.Bridge

end
-- ==== Proof.lean ====
/-
  The certificate of a five-layer graph convolution network against its plain reference.

  The kernel program computes, from the edge list, one weight per edge (the product of the reciprocal square roots of
  the two end nodes' degrees); then five times: a dense kernel multiplies the node features by the layer's weight
  matrix, 5000 rows per grid point, and host operations gather the product's rows along the edges, scale them by the
  edge weights, add them up at the target nodes, add the bias and clamp at zero; then it averages the node features
  over each graph, normalises each graph's 64 features, and applies the output layer.  The reference does the same
  with one whole matrix product in place of each dense kernel.

  Frames: both kernel programs' frames are the generated ones; the reference is a straight line of host operations,
  whose run (every weakly fair execution terminates, faults nowhere, and leaves every buffer at the fold of the
  operations over the launch contents) gives its frame with the result dropped.
  The idealization rewrote nothing, so there is nothing to preserve.
  Equality of the results over the extended reals: the kernel program's run leaves its result buffer at the contents of
  the last boundary of its chain of stretches and kernels; read back boundary by boundary these are the reference's
  (module Bridge): each dense kernel's 20 row blocks tile the whole product, and at the ideal values a narrowing of the
  float format is the identity, so the kernel's entries are the same sums of the same products as the reference's.
  Nothing needs the inputs finite.
-/
import proofs.«172271_j20693152432416_1_alg».proof.Defs
import proofs.«172271_j20693152432416_1_alg».proof.Proof.Gen.Kernel
import proofs.«172271_j20693152432416_1_alg».proof.Proof.Gen.Kernel.Frame
import proofs.«172271_j20693152432416_1_alg».proof.Proof.Gen.KernelIdeal
import proofs.«172271_j20693152432416_1_alg».proof.Proof.Gen.KernelIdeal.Frame
import proofs.«172271_j20693152432416_1_alg».proof.Proof.Gen.ReferenceIdeal
import proofs.«172271_j20693152432416_1_alg».proof.Proof.Gen.Pre_finite_inputs
import proofs.«172271_j20693152432416_1_alg».proof.Proof.KernelRun
import proofs.«172271_j20693152432416_1_alg».proof.Proof.RefRun
import proofs.«172271_j20693152432416_1_alg».proof.Proof.Bridge
import Idealize.ShloMosaic.Adequacy
import Idealize.ShloMosaic.Init

noncomputable section

namespace Cert.Proof

open Idealize.ShloMosaic Idealize.SL.Sem

/-- The kernel program as printed: the generated frame. -/
theorem frame_k : Cert.frame_Kernel (hKernel := Cert.Kernel.Gen.facts) (hPre_finite_inputs := Cert.Pre_finite_inputs.Gen.facts) := fun m ρ _ => Cert.Kernel.Gen.frame m ρ

/-- The idealized kernel program: the generated frame. -/
theorem frame_ki : Cert.frame_KernelIdeal (hKernelIdeal := Cert.KernelIdeal.Gen.facts) (hPre_finite_inputs := Cert.Pre_finite_inputs.Gen.facts) := fun m ρ _ => Cert.KernelIdeal.Gen.frame m ρ

/-- The reference: its run with the result dropped. -/
theorem frame_ri : Cert.frame_ReferenceIdeal (hReferenceIdeal := Cert.ReferenceIdeal.Gen.facts) (hPre_finite_inputs := Cert.Pre_finite_inputs.Gen.facts) := fun m ρ _ =>
  (θ_run Cert.ReferenceIdeal.defs _ _).mono (fun _ h c => (h c).2) (Cert.ReferenceIdeal.ValueP.run (F := Ideal) m ρ)

/-- From memories that agree on the nine arguments both idealized programs end with the result buffer at the same
    extended reals: the kernel program's last boundary contents, which are the reference's fold of its operations. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.KernelIdeal.Gen.W23 m ρ c (Proc.devRef .tc Cert.KernelIdeal.main_v169), Cert.KernelIdeal.Named.run (F := Ideal) m ρ, ?_⟩
  refine (θ_run Cert.ReferenceIdeal.defs _ _).mono (fun _ h c => ⟨(h c).1.trans ?_, (h c).2⟩)
    (Cert.ReferenceIdeal.ValueP.run (F := Ideal) m' ρ')
  exact (Cert.Bridge.result_eq m ρ m' c (hagree c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
